-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v78_0)) (v1 : (c : Dev Cert.KernelIdeal.nD) → Buf (Elt Ideal) ((c.tc : Thread Cert.KernelIdeal.nD Cert.KernelIdeal.τ).loc Cert.KernelIdeal.main_v78_1)) (v2 : (c : Dev Cert.KernelIdeal.nD) → Buf (Elt Ideal) ((c.tc : Thread Cert.KernelIdeal.nD Cert.KernelIdeal.τ).loc Cert.KernelIdeal.main_v78_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78_0) = v0 c
          ∧ r.2.mem ((c.tc : Thread Cert.KernelIdeal.nD Cert.KernelIdeal.τ).loc Cert.KernelIdeal.main_v78_1) = v1 c
          ∧ r.2.mem ((c.tc : Thread Cert.KernelIdeal.nD Cert.KernelIdeal.τ).loc Cert.KernelIdeal.main_v78_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000x64 : S_.BroadcastsInDim S100000x64 (![] : Fin 0 → Fin S100000x64.rank)
  reducesTo_S100000x64_S_d0_1 : S100000x64.ReducesTo [0, 1] S_

variable [Facts]

def fn_part2 {F : FTy → Type} [FloatOps F] (main_arg8 : FVec F S100000x64 .f32) (main_v33 : IVec S_ 1) : IVec S_ 1 :=
  let main_v34 : FVec F S100000x64 .f32 := Host.absf main_arg8
  let main_cst_12 : FVec F S_ .f32 := constant S_ .f32 0x7F800000#32
  let main_v35 : FVec F S100000x64 .f32 := broadcastInDim S100000x64 ![] bcast_S_S100000x64 main_cst_12
  let main_v36 : IVec S100000x64 1 := cmpf .olt main_v34 main_v35
  let main_c_13 : IVec S_ 1 := constantI S_ 1 1#1
  let main_v37 : IVec S_ 1 := (fun x v => Host.reduce IntOp.andi x v reducesTo_S100000x64_S_d0_1 h_S_) main_v36 main_c_13
  let main_v38 : IVec S_ 1 := andi main_v33 main_v37
  main_v38

def fn_part1 {F : FTy → Type} [FloatOps F] (main_arg5 : FVec F S64 .f32) (main_arg6 : FVec F S128x64 .f32) (main_arg7 : FVec F S64 .f32) (main_arg8 : FVec F S100000x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S128x64 .f32) (main_arg7 : FVec F S64 .f32) (main_arg8 : FVec F S100000x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S10000x64 : Shape := ⟨2, ![10000, 64]⟩
abbrev S1700000x64 : Shape := ⟨2, ![1700000, 64]⟩
abbrev S1x64 : Shape := ⟨2, ![1, 64]⟩
abbrev S5000x64 : Shape := ⟨2, ![5000, 64]⟩

abbrev nBuf : Space → Nat
  | .hbm => 110
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S100000x64, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x64, .f32⟩
  | .hbm, ⟨98, _⟩ => ⟨S1700000x1, .f32⟩
  | .hbm, ⟨99, _⟩ => ⟨S1700000x64, .f32⟩
  | .hbm, ⟨100, _⟩ => ⟨S1700000x64, .f32⟩
  | .hbm, ⟨101, _⟩ => ⟨S_, .f32⟩
  | .hbm, ⟨102, _⟩ => ⟨S100000x64, .f32⟩
  | .hbm, ⟨103, _⟩ => ⟨S1700000x1, .i32⟩
  | .hbm, ⟨104, _⟩ => ⟨S100000x64, .f32⟩
  | .hbm, ⟨105, _⟩ => ⟨S1x64, .f32⟩
  | .hbm, ⟨106, _⟩ => ⟨S1x64, .f32⟩
  | .hbm, ⟨107, _⟩ => ⟨S100000x64, .f32⟩
  | .hbm, ⟨108, _⟩ => ⟨S100000x64, .f32⟩
  | .hbm, ⟨109, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x128, .f32⟩
  | .local _ .vmem, ⟨16, _⟩ => ⟨S10000x128, .f32⟩
  | .local _ .vmem, ⟨17, _⟩ => ⟨S128x64, .f32⟩
  | .local _ .vmem, ⟨18, _⟩ => ⟨S10000x64, .f32⟩
  | .local _ .vmem, ⟨19, _⟩ => ⟨S10000x64, .f32⟩
  | .local _ .vmem, ⟨20, _⟩ => ⟨S5000x64, .f32⟩
  | .local _ .vmem, ⟨21, _⟩ => ⟨S5000x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78_0 : Ref sig .tc := ⟨.hbm, 107, rfl⟩
abbrev main_v78_1 : Ref sig .tc := ⟨.hbm, 108, rfl⟩
abbrev main_v78_2 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg4_1 : Ref sig .tc := ⟨.vmem, 27, rfl⟩
abbrev cc4_stg5_0 : Ref sig .tc := ⟨.vmem, 28, rfl⟩
abbrev cc4_stg5_1 : Ref sig .tc := ⟨.vmem, 29, rfl⟩
abbrev cc4_stg6_0 : Ref sig .tc := ⟨.vmem, 30, rfl⟩
abbrev cc4_stg6_1 : Ref sig .tc := ⟨.vmem, 31, rfl⟩
abbrev cc4_stg7_0 : Ref sig .tc := ⟨.vmem, 32, rfl⟩
abbrev cc4_stg7_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc4_sem3_0 : DmaSem sig := 25
abbrev cc4_sem4_0 : DmaSem sig := 26
abbrev cc4_sem4_1 : DmaSem sig := 27
abbrev cc4_sem5_0 : DmaSem sig := 28
abbrev cc4_sem5_1 : DmaSem sig := 29
abbrev cc4_sem6_0 : DmaSem sig := 30
abbrev cc4_sem6_1 : DmaSem sig := 31
abbrev cc4_sem7_0 : DmaSem sig := 32
abbrev cc4_sem7_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S100000x64.size a
  hwx4_6 : ∀ i : grid4.Coords, EltTy.bits .f32 = 32 ∨ (Rect.block (s := S100000x64) S5000x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S100000x64.size a
  hwx4_7 : ∀ i : grid4.Coords, EltTy.bits .f32 = 32 ∨ (Rect.block (s := S100000x64) S5000x64.size (cc4_transform_7 i) (hinb4_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v77) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S5000x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v78_0) S5000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v78_1) S5000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v78_2) S5000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000x64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x64, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x64, .f32⟩
  | .hbm, ⟨85, _⟩ => ⟨S1700000x1, .f32⟩
  | .hbm, ⟨86, _⟩ => ⟨S1700000x64, .f32⟩
  | .hbm, ⟨87, _⟩ => ⟨S1700000x64, .f32⟩
  | .hbm, ⟨88, _⟩ => ⟨S_, .f32⟩
  | .hbm, ⟨89, _⟩ => ⟨S100000x64, .f32⟩
  | .hbm, ⟨90, _⟩ => ⟨S1700000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x64, .f32⟩
  | .hbm, ⟨105, _⟩ => ⟨S1700000x1, .f32⟩
  | .hbm, ⟨106, _⟩ => ⟨S1700000x64, .f32⟩
  | .hbm, ⟨107, _⟩ => ⟨S1700000x64, .f32⟩
  | .hbm, ⟨108, _⟩ => ⟨S_, .f32⟩
  | .hbm, ⟨109, _⟩ => ⟨S100000x64, .f32⟩
  | .hbm, ⟨110, _⟩ => ⟨S1700000x1, .i32⟩
  | .hbm, ⟨111, _⟩ => ⟨S100000x64, .f32⟩
  | .hbm, ⟨112, _⟩ => ⟨S1x64, .f32⟩
  | .hbm, ⟨113, _⟩ => ⟨S100000x64, .f32⟩
  | .hbm, ⟨114, _⟩ => ⟨S100000x64, .f32⟩
  | .hbm, ⟨115, _⟩ => ⟨S_, .f32⟩
  | .hbm, ⟨116, _⟩ => ⟨S100000x64, .f32⟩
  | .hbm, ⟨117, _⟩ => ⟨S100000x64, .f32⟩
  | .hbm, ⟨118, _⟩ => ⟨S100000x64, .f32⟩
  | .hbm, ⟨119, _⟩ => ⟨S100000x64, .f32⟩
  | .hbm, ⟨120, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with its three results named.

  The program is five kernel regions among six stretches of host operations. Its buffer contents at each boundary
  are a fold from the launch memory: a stretch applies its operations, a region replaces its arrays by what its
  write-backs leave. The last boundary's contents are W11. Every weakly fair execution terminates in a state whose
  unscoped buffers hold W11; read at the three result buffers and at the nine arguments this gives the run below:
  the results are W11 at their buffers, the arguments are as launched.
-/
import proofs.«123272_j51823075393706_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the last
    boundary's contents and each argument as launched. -/
theorem run : θ_run defs (onTc (τ := τ) (main (F := F))) ⟨m, fun _ => 0, ρ⟩ (fun r => ∀ c : Dev nD,
      r.2.mem ((c.tc : Thread nD τ).loc main_v78_0) = W11 m ρ c (Proc.devRef .tc main_v78_0)
      ∧ r.2.mem ((c.tc : Thread nD τ).loc main_v78_1) = W11 m ρ c (Proc.devRef .tc main_v78_1)
      ∧ r.2.mem ((c.tc : Thread nD τ).loc main_v78_2) = W11 m ρ c (Proc.devRef .tc main_v78_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v78_0 (by decide)),
       h c _ (mem_uc main_v78_1 (by decide)),
       h c _ (mem_uc main_v78_2 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Named

end
-- ==== Proof.HostStretches.lean ====
/-
  The six stretches of host operations of the idealized kernel's program, each read as a function.

  Between its five kernel regions the program applies host operations to whole arrays. The first three stretches
  build, from the edge list alone, the two index vectors (source and destination node of every edge, each followed by
  the self loops 0 … 99999) and the edge weights: the in-degree of a node is the scatter-add of ones over the destination
  vector, its factor is rsqrt(max(degree, 1)) where the degree is positive and 0 elsewhere, and the weight of an
  edge is the product of its two ends' factors. Each of the other three stretches aggregates one matrix along the
  edges: it gathers the rows named by the source vector, scales row e by the weight of edge e, and scatter-adds the
  rows into a matrix of zeros at the rows named by the destination vector; two of them also lay a bias vector out
  as a one-row matrix.

  Each lemma below states what ONE stretch leaves in one buffer, from any contents W of the buffers before it, as
  the corresponding stage of the reference program applied to W's buffers. The reference applies the same host
  operations, so each equation holds by unfolding the stages. A buffer that a stretch does not write keeps its
  contents (the "kept" lemmas).
-/
import proofs.«123272_j51823075393706_1_alg».proof.Proof.Gen.KernelIdeal.Launch
import proofs.«123272_j51823075393706_1_alg».proof.Proof.RefReadPatched
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.ShloMosaic.StableHlo
open Cert.ReferenceIdeal.ReadP

variable (W : Valuation τ sig (Elt Ideal))

/-! ## The buffers each stretch writes, and that it writes no other -/

/-- A stretch writes only the buffers of its list: every operation's written set is one buffer of the list. -/
macro "writes_within " ops:ident : tactic => `(tactic|
  (simp only [$ops:ident, List.Forall, StableHlo.nullary_writes, StableHlo.unary_writes, StableHlo.binary_writes,
      StableHlo.ternary_writes, StableHlo.quaternary_writes, StableHlo.reshape_writes, StableHlo.binaryIndexed_writes,
      Finset.singleton_subset_iff, List.mem_toFinset, List.map_cons, List.map_nil, List.mem_cons, true_or, or_true, and_self]))

abbrev written0 : List (Ref sig .tc) := [main_v0, main_v1, main_v2, main_v3, main_v4, main_v5, main_v6, main_cst, main_v7, main_cst_0,
  main_v8, main_v9, main_v10, main_cst_1, main_v11, main_v12, main_cst_2, main_v13, main_v14, main_v15, main_cst_3]
theorem writes0 : (hostOps0 (F := Ideal)).Forall fun op => op.writes ⊆ (written0.map (Proc.devRef (τ := τ) .tc)).toFinset := by
  writes_within hostOps0

abbrev written0_1 : List (Ref sig .tc) := [main_call0_v0, main_call0_v1, main_v16]
theorem writes0_1 : (hostOps0_1 (F := Ideal)).Forall fun op => op.writes ⊆ (written0_1.map (Proc.devRef (τ := τ) .tc)).toFinset := by
  writes_within hostOps0_1

abbrev written0_2 : List (Ref sig .tc) := [main_c, main_v17, main_v18, main_c_4, main_v19, main_v20, main_v21, main_v22, main_v23,
  main_c_5, main_v24, main_v25, main_c_6, main_v26, main_v27, main_v28, main_v29, main_v30, main_v31]
theorem writes0_2 : (hostOps0_2 (F := Ideal)).Forall fun op => op.writes ⊆ (written0_2.map (Proc.devRef (τ := τ) .tc)).toFinset := by
  writes_within hostOps0_2

abbrev written1 : List (Ref sig .tc) := [main_c_7, main_v33, main_v34, main_c_8, main_v35, main_v36, main_v37, main_v38, main_v39,
  main_v40, main_v41, main_v42, main_cst_9, main_v43, main_v44, main_v45, main_v46]
theorem writes1 : (hostOps1 (F := Ideal)).Forall fun op => op.writes ⊆ (written1.map (Proc.devRef (τ := τ) .tc)).toFinset := by
  writes_within hostOps1

abbrev written3 : List (Ref sig .tc) := [main_c_10, main_v49, main_v50, main_c_11, main_v51, main_v52, main_v53, main_v54, main_v55,
  main_v56, main_v57, main_v58, main_cst_12, main_v59, main_v60, main_v61]
theorem writes3 : (hostOps3 (F := Ideal)).Forall fun op => op.writes ⊆ (written3.map (Proc.devRef (τ := τ) .tc)).toFinset := by
  writes_within hostOps3

abbrev written4 : List (Ref sig .tc) := [main_c_13, main_v63, main_v64, main_c_14, main_v65, main_v66, main_v67, main_v68, main_v69,
  main_v70, main_v71, main_v72, main_cst_15, main_v73, main_v74, main_v75, main_v76, main_v77]
theorem writes4 : (hostOps4 (F := Ideal)).Forall fun op => op.writes ⊆ (written4.map (Proc.devRef (τ := τ) .tc)).toFinset := by
  writes_within hostOps4

/-- A buffer outside a stretch's list keeps its contents through the stretch. -/
theorem kept0 {r : Ref sig .tc} (hr : r ∉ written0) : after (hostOps0 (F := Ideal)) W (Proc.devRef .tc r) = W (Proc.devRef .tc r) :=
  after_of_writes_sub _ W writes0 hr
theorem kept0_1 {r : Ref sig .tc} (hr : r ∉ written0_1) : after (hostOps0_1 (F := Ideal)) W (Proc.devRef .tc r) = W (Proc.devRef .tc r) :=
  after_of_writes_sub _ W writes0_1 hr
theorem kept0_2 {r : Ref sig .tc} (hr : r ∉ written0_2) : after (hostOps0_2 (F := Ideal)) W (Proc.devRef .tc r) = W (Proc.devRef .tc r) :=
  after_of_writes_sub _ W writes0_2 hr
theorem kept1 {r : Ref sig .tc} (hr : r ∉ written1) : after (hostOps1 (F := Ideal)) W (Proc.devRef .tc r) = W (Proc.devRef .tc r) :=
  after_of_writes_sub _ W writes1 hr
theorem kept3 {r : Ref sig .tc} (hr : r ∉ written3) : after (hostOps3 (F := Ideal)) W (Proc.devRef .tc r) = W (Proc.devRef .tc r) :=
  after_of_writes_sub _ W writes3 hr
theorem kept4 {r : Ref sig .tc} (hr : r ∉ written4) : after (hostOps4 (F := Ideal)) W (Proc.devRef .tc r) = W (Proc.devRef .tc r) :=
  after_of_writes_sub _ W writes4 hr

/-! ## The first stretch: the index vectors and the two ingredients of the degree factors -/

/-- The source vector: the first row of the edge list followed by the self loops. -/
theorem sources : after (hostOps0 (F := Ideal)) W (Proc.devRef .tc main_v5) = val_main_v3 (F := Ideal) (W (Proc.devRef .tc main_arg1)) := by
  dsimp only [hostOps0]; after_results <;> rfl
/-- The destination vector: the second row of the edge list followed by the self loops. -/
theorem destinations : after (hostOps0 (F := Ideal)) W (Proc.devRef .tc main_v6) = val_main_v6 (F := Ideal) (W (Proc.devRef .tc main_arg1)) := by
  dsimp only [hostOps0]; after_results <;> rfl
/-- Where the degree is positive. -/
theorem degree_positive : after (hostOps0 (F := Ideal)) W (Proc.devRef .tc main_v12) = val_main_v12 (F := Ideal) (W (Proc.devRef .tc main_arg1)) := by
  dsimp only [hostOps0]; after_results <;> rfl
/-- rsqrt of the degree raised to at least 1. -/
theorem degree_rsqrt : after (hostOps0 (F := Ideal)) W (Proc.devRef .tc main_v15) = val_main_v15 (F := Ideal) (W (Proc.devRef .tc main_arg1)) := by
  dsimp only [hostOps0]; after_results <;> rfl
/-- The zero that stands where the degree is not positive. -/
theorem zero_word : after (hostOps0 (F := Ideal)) W (Proc.devRef .tc main_cst_3) = val_main_cst_3 (F := Ideal) := by
  dsimp only [hostOps0]; after_results <;> rfl

/-! ## The second stretch: the degree factors -/

/-- The stretch itself, over whatever the three buffers it reads hold: the factor is the second operand (rsqrt of
    the raised degree) where the first (degree positive) holds, and the broadcast third (the zero) elsewhere. -/
theorem factors_of_operands :
    after (hostOps0_1 (F := Ideal)) W (Proc.devRef .tc main_v16)
      = select (W (Proc.devRef .tc main_v12)) (W (Proc.devRef .tc main_v15))
          (broadcastInDim S100000 ![] bcast_S_S100000 (id (W (Proc.devRef .tc main_cst_3)))) := by
  dsimp only [hostOps0_1]
  after_results_simp
  generalize W (Proc.devRef .tc main_v12) = a
  generalize W (Proc.devRef .tc main_v15) = b
  generalize W (Proc.devRef .tc main_cst_3) = z
  rfl

theorem factors (e : (⟨Cert.ReferenceIdeal.S2x1600000, .i32⟩ : BufTy).Contents (Elt Ideal))
    (h12 : W (Proc.devRef .tc main_v12) = val_main_v12 (F := Ideal) e) (h15 : W (Proc.devRef .tc main_v15) = val_main_v15 (F := Ideal) e)
    (h3 : W (Proc.devRef .tc main_cst_3) = val_main_cst_3 (F := Ideal)) :
    after (hostOps0_1 (F := Ideal)) W (Proc.devRef .tc main_v16) = val_main_v16 (F := Ideal) e := by
  rw [factors_of_operands, h12, h15, h3]; rfl

/-! ## The third stretch: the edge weights -/

set_option maxHeartbeats 4000000 in
theorem weights (e : (⟨Cert.ReferenceIdeal.S2x1600000, .i32⟩ : BufTy).Contents (Elt Ideal))
    (h5 : W (Proc.devRef .tc main_v5) = val_main_v3 (F := Ideal) e) (h6 : W (Proc.devRef .tc main_v6) = val_main_v6 (F := Ideal) e)
    (h16 : W (Proc.devRef .tc main_v16) = val_main_v16 (F := Ideal) e) :
    after (hostOps0_2 (F := Ideal)) W (Proc.devRef .tc main_v31) = val_main_v31 (F := Ideal) e := by
  dsimp only [hostOps0_2]; after_results_simp; rw [h5, h6, h16]; rfl

/-! ## The aggregations along the edges, and the bias rows -/

set_option maxHeartbeats 4000000 in
/-- The first aggregation, of the 128-column product. -/
theorem aggregate1 (x0 : (⟨Cert.ReferenceIdeal.S100000x128, .f32⟩ : BufTy).Contents (Elt Ideal))
    (e : (⟨Cert.ReferenceIdeal.S2x1600000, .i32⟩ : BufTy).Contents (Elt Ideal))
    (x2 : (⟨Cert.ReferenceIdeal.S128x128, .f32⟩ : BufTy).Contents (Elt Ideal))
    (h32 : W (Proc.devRef .tc main_v32) = val_main_v32 (F := Ideal) x0 x2)
    (h5 : W (Proc.devRef .tc main_v5) = val_main_v3 (F := Ideal) e) (h6 : W (Proc.devRef .tc main_v6) = val_main_v6 (F := Ideal) e)
    (h31 : W (Proc.devRef .tc main_v31) = val_main_v31 (F := Ideal) e) :
    after (hostOps1 (F := Ideal)) W (Proc.devRef .tc main_v45) = val_main_v45 (F := Ideal) x0 e x2 := by
  dsimp only [hostOps1]; after_results_simp; rw [h32, h5, h6, h31]; rfl
/-- The first bias vector laid out as a one-row matrix. -/
theorem bias_row1 : after (hostOps1 (F := Ideal)) W (Proc.devRef .tc main_v46)
    = shapeCast S1x128 (W (Proc.devRef .tc main_arg3)) shapeCasts_S128_S1x128 := by
  dsimp only [hostOps1]; after_results <;> rfl

set_option maxHeartbeats 4000000 in
/-- The aggregation of the first 64-column product. -/
theorem aggregate_mu (x0 : (⟨Cert.ReferenceIdeal.S100000x128, .f32⟩ : BufTy).Contents (Elt Ideal))
    (e : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x64, .f32⟩ : BufTy).Contents (Elt Ideal))
    (h48 : W (Proc.devRef .tc main_v48) = val_main_v50 (F := Ideal) x0 e x2 x3 x4)
    (h5 : W (Proc.devRef .tc main_v5) = val_main_v3 (F := Ideal) e) (h6 : W (Proc.devRef .tc main_v6) = val_main_v6 (F := Ideal) e)
    (h31 : W (Proc.devRef .tc main_v31) = val_main_v31 (F := Ideal) e) :
    after (hostOps3 (F := Ideal)) W (Proc.devRef .tc main_v61) = val_main_v63 (F := Ideal) x0 e x2 x3 x4 := by
  dsimp only [hostOps3]; after_results_simp; rw [h48, h5, h6, h31]; rfl

set_option maxHeartbeats 4000000 in
/-- The aggregation of the second 64-column product. -/
theorem aggregate_lv (x0 : (⟨Cert.ReferenceIdeal.S100000x128, .f32⟩ : BufTy).Contents (Elt Ideal))
    (e : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x6 : (⟨Cert.ReferenceIdeal.S128x64, .f32⟩ : BufTy).Contents (Elt Ideal))
    (h62 : W (Proc.devRef .tc main_v62) = val_main_v67 (F := Ideal) x0 e x2 x3 x6)
    (h5 : W (Proc.devRef .tc main_v5) = val_main_v3 (F := Ideal) e) (h6 : W (Proc.devRef .tc main_v6) = val_main_v6 (F := Ideal) e)
    (h31 : W (Proc.devRef .tc main_v31) = val_main_v31 (F := Ideal) e) :
    after (hostOps4 (F := Ideal)) W (Proc.devRef .tc main_v75) = val_main_v80 (F := Ideal) x0 e x2 x3 x6 := by
  dsimp only [hostOps4]; after_results_simp; rw [h62, h5, h6, h31]; rfl
/-- The other two bias vectors laid out as one-row matrices. -/
theorem bias_row_mu : after (hostOps4 (F := Ideal)) W (Proc.devRef .tc main_v76)
    = shapeCast S1x64 (W (Proc.devRef .tc main_arg5)) shapeCasts_S64_S1x64 := by
  dsimp only [hostOps4]; after_results <;> rfl
theorem bias_row_lv : after (hostOps4 (F := Ideal)) W (Proc.devRef .tc main_v77)
    = shapeCast S1x64 (W (Proc.devRef .tc main_arg7)) shapeCasts_S64_S1x64 := by
  dsimp only [hostOps4]; after_results <;> rfl

end Cert.KernelIdeal.Stretches

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibRowBlockProduct.lean ====
/-
  A block of rows of a matrix product is the product of that block of rows.

  Let A be an M × k matrix, B a k × n matrix, and X an mb × k matrix whose row p is row r of A. Then the product
  X · B accumulated into zero has, at entry (p, q), the value of the whole product A · B at entry (r, q): both are
  the sum over the k contracted coordinates c of A(r, c) · B(c, q). The left side is the matrix unit's product
  started from an accumulator of zeros; the right side is the host's `dot_general`. Only the two rows have to agree,
  entry by entry; nothing is asked of the other rows, and no entry has to be finite (a finite sum of products on the
  extended reals is a function of its terms).
-/
import proofs.«123272_j51823075393706_1_alg».proof.Proof.LibPlainMatmul
import proofs.«123272_j51823075393706_1_alg».proof.Proof.LibPlainDotGeneral

open scoped BigOperators

namespace Idealize.ShloMosaic.ValueIdx

open Idealize.ShloMosaic

/-- Row `p` of the block product `X · Y` (into zero) is row `r` of the whole product `A · B`, when row `p` of `X` is
    row `r` of `A` and column `q` of `Y` is column `q` of `B`. -/
theorem matmul_rowblock_apply {M mb k n : ℕ} {φ₁ φ₂ ψ₁ ψ₂ : FTy}
    (wb : DotDims.WF ⟨2, ![mb, k]⟩ ⟨2, ![k, n]⟩ ⟨2, ![mb, n]⟩ [1] [0] [0] [1] [] [])
    (wa : DotDims.WF ⟨2, ![M, k]⟩ ⟨2, ![k, n]⟩ ⟨2, ![M, n]⟩ [1] [0] [0] [1] [] [])
    (prec prec' : Option ContractPrecision)
    (A : FVec Ideal ⟨2, ![M, k]⟩ ψ₁) (B : FVec Ideal ⟨2, ![k, n]⟩ ψ₂)
    (X : FVec Ideal ⟨2, ![mb, k]⟩ φ₁) (Y : FVec Ideal ⟨2, ![k, n]⟩ φ₂)
    (p : Fin mb) (q : Fin n) (r : Fin M)
    (hX : ∀ c : Fin k, X (ix2 p c) = A (ix2 r c)) (hY : ∀ c : Fin k, Y (ix2 c q) = B (ix2 c q)) :
    matmul (⟨[1], [0], [0], [1], [], [], wb⟩ : DotDims ⟨2, ![mb, k]⟩ ⟨2, ![k, n]⟩ ⟨2, ![mb, n]⟩) prec X Y
        (constant (F := Ideal) ⟨2, ![mb, n]⟩ .f32 0x00000000#32) (ix2 p q)
      = Host.dotGeneral (⟨[1], [0], [0], [1], [], [], wa⟩ : DotDims ⟨2, ![M, k]⟩ ⟨2, ![k, n]⟩ ⟨2, ![M, n]⟩) prec' A B (ix2 r q) := by
  rw [matmul_plain_zero_apply wb prec X Y p q, dotGeneral_plain_apply wa prec' A B r q]
  exact Finset.sum_congr rfl fun c _ => by rw [hX c, hY c]

end Idealize.ShloMosaic.ValueIdx
-- ==== Proof.Region0.lean ====
/-
  The first matrix-product region: the array it leaves is the whole product.

  The region runs over ten grid points. At point t it stages rows 10000·t … 10000·t + 9999 of the left matrix
  X (100000 × 128) and the whole right matrix W (128 × 128), multiplies the row block by W into an accumulator of
  zeros, and writes the result back as rows 10000·t … of the output. An entry (p, q) of the block product is the
  sum over the 128 contracted coordinates of X(10000·t + p, c) · W(c, q), which is the entry (10000·t + p, q) of the
  whole product X · W: a block of rows of a product is the product of that block of rows. The ten blocks tile the
  output, so the output array ends holding X · W, stated here with the host's dot_general.
-/
import proofs.«123272_j51823075393706_1_alg».proof.Proof.Gen.KernelIdeal.Frame
import proofs.«123272_j51823075393706_1_alg».proof.Proof.Gen.ReferenceIdeal
import proofs.«123272_j51823075393706_1_alg».proof.Proof.LibRowBlockProduct
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The offsets of a whole-block rectangle are all zero. -/
theorem zero_offsets : (![0, 0] : Fin 2 → Nat) = fun _ => 0 := funext fun a => by fin_cases a <;> rfl

/-- The whole product of a 100000 × 128 matrix by a 128 × 128 matrix, as the host computes it. -/
abbrev product128 (X : FVec Ideal Cert.ReferenceIdeal.S100000x128 .f32) (W : FVec Ideal Cert.ReferenceIdeal.S128x128 .f32) :
    FVec Ideal Cert.ReferenceIdeal.S100000x128 .f32 :=
  Host.dotGeneral Cert.ReferenceIdeal.dot_S100000x128_S128x128_S100000x128_1_0_0_1_n_n none X W

/-- The body's product of a block of 10000 rows by the right matrix, at entry (p, q), is the whole product at
    (r, q), when row p of the block is row r of the left matrix and the staged right matrix is the right matrix. -/
theorem product128_block (X : FVec Ideal Cert.ReferenceIdeal.S100000x128 .f32) (W : FVec Ideal Cert.ReferenceIdeal.S128x128 .f32)
    (x0 : Vec Ideal S10000x128 .f32) (x1 : Vec Ideal S128x128 .f32) (p : Fin 10000) (q : Fin 128) (r : Fin 100000)
    (hx : ∀ k : Fin 128, x0 (ix2 p k) = X (ix2 r k)) (hw : ∀ k : Fin 128, x1 (ix2 k q) = W (ix2 k q)) :
    k0_pay1 (F := Ideal) x0 x1 (ix2 p q) = product128 X W (ix2 r q) := by
  unfold k0_pay1
  exact matmul_rowblock_apply _ _ none none X W _ _ p q r hx hw

section Region
variable (V : (c : Dev nD) → (b : Ref sig .tc) → Buf (Elt Ideal) ((c : Thread nD τ).loc b))

/-- Where the three windows' blocks sit at point t: the row blocks of the left matrix and of the output are block t,
    the right matrix is one block. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region finds. -/
theorem flushed0 (c : Dev nD) (t : Fin cfg0.N) :
    (dat0 V c).flushed 2 t
      = ((cfg0.win 2).blk t).view.read (Elt Ideal) (product128 (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e0, e1, e2, e3, e4, e5⟩ := index_facts0 t
  funext j
  obtain ⟨p, q, rfl⟩ : ∃ (p : Fin 10000) (q : Fin 128), j = ix2 p q := ⟨j 0, j 1, eq_ix2 j⟩
  have hr : t.val * 10000 + p.val < 100000 := by have ht : t.val < 10 := t.isLt; have hp : p.val < 10000 := p.isLt; omega
  show k0_pay1 (iblk0 V c 0 t) (iblk0 V c 1 t) (ix2 p q)
    = product128 (V c main_arg0) (V c main_arg2) (((cfg0.win 2).blk t).view.emb (ix2 p q))
  have hemb : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  rw [hemb]
  refine product128_block (V c main_arg0) (V c main_arg2) (iblk0 V c 0 t) (iblk0 V c 1 t) p q ⟨t.val * 10000 + p.val, hr⟩ ?_ ?_
  · intro k
    show V c main_arg0 (((cfg0.win 0).blk t).view.emb (ix2 p k)) = V c main_arg0 (ix2 ⟨t.val * 10000 + p.val, hr⟩ k)
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · intro k
    show V c main_arg2 (((cfg0.win 1).blk t).view.emb (ix2 k q)) = V c main_arg2 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the output is in point t's block iff each coordinate is in the block's range on its axis. -/
theorem mem_block0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- The ten row blocks tile the output: row r lies in block r / 10000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 10000 < 10 := by omega
  refine ⟨⟨(i 0).val / 10000, ht⟩, flush0_2 _, ?_⟩
  rw [mem_block0]
  obtain ⟨e0, e1, e2, e3, e4, e5⟩ := index_facts0 ⟨(i 0).val / 10000, ht⟩
  intro a
  match a with
  | ⟨0, _⟩ => show win0_2.index ⟨(i 0).val / 10000, ht⟩ (0 : Fin 2) * 10000 ≤ (i 0).val ∧ (i 0).val < win0_2.index ⟨(i 0).val / 10000, ht⟩ (0 : Fin 2) * 10000 + 10000; rw [e4]; show (i 0).val / 10000 * 10000 ≤ (i 0).val ∧ (i 0).val < (i 0).val / 10000 * 10000 + 10000; omega
  | ⟨1, _⟩ => show win0_2.index ⟨(i 0).val / 10000, ht⟩ (1 : Fin 2) * 128 ≤ (i 1).val ∧ (i 1).val < win0_2.index ⟨(i 0).val / 10000, ht⟩ (1 : Fin 2) * 128 + 128; omega

/-- The output array after the region is the whole product of the arrays the region finds. -/
theorem region0 (c : Dev nD) :
    (dat0 V c).arrAt 2 cfg0.N = product128 (V c main_arg0) (V c main_arg2) :=
  (dat0 V c).arrAt_eq_of_cover 2 _ (fun t _ => flushed0 V c t) cover0

end Region

end Cert.KernelIdeal.Blocks

end
-- ==== Proof.Region1.lean ====
/-
  The activation region: the array it leaves is max(A + b, 0), row by row.

  Ten grid points; at point t the region stages rows 10000·t … of the aggregated matrix A (100000 × 128) and the
  one-row matrix holding the bias vector b, adds the bias row to every staged row, takes the maximum with zero and
  writes the block back as rows 10000·t … of the output. Entry (p, q) of the block is max(A(10000·t + p, q) + b(q), 0).
  The host's form of the same array adds to A the bias vector broadcast first to a one-row matrix and then to all
  100000 rows, and takes the maximum with a matrix of zeros: at (r, q) that is max(A(r, q) + b(q), 0) as well.
-/
import proofs.«123272_j51823075393706_1_alg».proof.Proof.Region0
import proofs.«123272_j51823075393706_1_alg».proof.Proof.RefReadPatched
import Idealize.ShloMosaic.Lib.ValueLayout

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.ReferenceIdeal.ReadP

/-- max(A + b, 0) as the host spells it: the bias broadcast over the rows, the zero broadcast over the matrix. -/
abbrev activated (A : FVec Ideal Cert.ReferenceIdeal.S100000x128 .f32) (b : FVec Ideal Cert.ReferenceIdeal.S128 .f32) :
    FVec Ideal Cert.ReferenceIdeal.S100000x128 .f32 :=
  maximumf (addf A (val_main_v47 (F := Ideal) b)) (val_main_call1_v0 (F := Ideal))

/-- The bias vector broadcast over the rows reads b(q) at (r, q). -/
theorem bias_rows128 (b : FVec Ideal Cert.ReferenceIdeal.S128 .f32) (r : Fin 100000) (q : Fin 128) :
    val_main_v47 (F := Ideal) b (ix2 r q) = b (ix1 q) := by
  rw [val_main_v47_apply, val_main_v46_apply]
  exact congrArg b (funext fun a => Fin.ext (by match a with | ⟨0, _⟩ => rfl))

/-- The body's value at (p, q) of a block is the host's array at (r, q), when the staged row p is row r of A and the
    staged one-row matrix holds b. -/
theorem activated_block (A : FVec Ideal Cert.ReferenceIdeal.S100000x128 .f32) (b : FVec Ideal Cert.ReferenceIdeal.S128 .f32)
    (x0 : Vec Ideal S10000x128 .f32) (x2 : Vec Ideal S1x128 .f32) (p : Fin 10000) (q : Fin 128) (r : Fin 100000)
    (hx : x0 (ix2 p q) = A (ix2 r q)) (hb : x2 (ix2 (0 : Fin 1) q) = b (ix1 q)) :
    k1_pay1 (F := Ideal) x0 x2 (ix2 p q) = activated A b (ix2 r q) := by
  have hzero : val_main_call1_v0 (F := Ideal) (ix2 r q) = Ideal.ofBits .f32 0x00000000#32 := by
    rw [val_main_call1_v0_apply]; rfl
  unfold k1_pay1
  show max (shapeCast S10000x128 x0 shapeCasts_S10000x128_S10000x128 (ix2 p q)
        + broadcastTo S10000x128 (shapeCast S1x128 x2 shapeCasts_S1x128_S1x128) broadcasts_S1x128_S10000x128 (ix2 p q))
      (Ideal.ofBits .f32 0x00000000#32)
    = max (A (ix2 r q) + val_main_v47 (F := Ideal) b (ix2 r q)) (val_main_call1_v0 (F := Ideal) (ix2 r q))
  rw [shapeCast_self, broadcastTo_1b_ab_apply, shapeCast_self, hx, hb, bias_rows128, hzero]

section Region
variable (V : (c : Dev nD) → (b : Ref sig .tc) → Buf (Elt Ideal) ((c : Thread nD τ).loc b))

/-- Where the three windows' blocks sit at point t. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of max(A + b, 0), A the aggregated matrix the region finds and b the vector
    its one-row operand lays out. -/
theorem flushed1 (c : Dev nD) (t : Fin cfg1.N) (b : FVec Ideal Cert.ReferenceIdeal.S128 .f32)
    (hB : V c main_v46 = shapeCast S1x128 b shapeCasts_S128_S1x128) :
    (dat1 V c).flushed 2 t
      = ((cfg1.win 2).blk t).view.read (Elt Ideal) (activated (V c main_v45) b) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S1x128) zero_offsets]
  obtain ⟨e0, e1, e2, e3, e4, e5⟩ := index_facts1 t
  funext j
  obtain ⟨p, q, rfl⟩ : ∃ (p : Fin 10000) (q : Fin 128), j = ix2 p q := ⟨j 0, j 1, eq_ix2 j⟩
  have hr : t.val * 10000 + p.val < 100000 := by have ht : t.val < 10 := t.isLt; have hp : p.val < 10000 := p.isLt; omega
  show k1_pay1 (iblk1 V c 0 t) (iblk1 V c 1 t) (ix2 p q)
    = activated (V c main_v45) b (((cfg1.win 2).blk t).view.emb (ix2 p q))
  have hemb : ((cfg1.win 2).blk t).view.emb (ix2 p q) = ix2 (⟨t.val * 10000 + p.val, hr⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  rw [hemb]
  refine activated_block (V c main_v45) b (iblk1 V c 0 t) (iblk1 V c 1 t) p q ⟨t.val * 10000 + p.val, hr⟩ ?_ ?_
  · show V c main_v45 (((cfg1.win 0).blk t).view.emb (ix2 p q)) = V c main_v45 (ix2 ⟨t.val * 10000 + p.val, hr⟩ q)
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 128 + 1 * q.val = q.val; omega
  · show V c main_v46 (((cfg1.win 1).blk t).view.emb (ix2 (0 : Fin 1) q)) = b (ix1 q)
    have hrow : ((cfg1.win 1).blk t).view.emb (ix2 (0 : Fin 1) q) = ix2 (0 : Fin 1) q := by
      funext a; apply Fin.ext
      match a with
      | ⟨0, _⟩ => show win1_1.index t (0 : Fin 2) * 1 + 1 * 0 = 0; omega
      | ⟨1, _⟩ => show win1_1.index t (1 : Fin 2) * 128 + 1 * q.val = q.val; omega
    rw [hrow, hB]
    exact shapeCast_a_1a_apply b shapeCasts_S128_S1x128 0 q

/-- An index of the output is in point t's block iff each coordinate is in the block's range on its axis. -/
theorem mem_block1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- The ten row blocks tile the output: row r lies in block r / 10000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 10000 < 10 := by omega
  refine ⟨⟨(i 0).val / 10000, ht⟩, flush1_2 _, ?_⟩
  rw [mem_block1]
  obtain ⟨e0, e1, e2, e3, e4, e5⟩ := index_facts1 ⟨(i 0).val / 10000, ht⟩
  intro a
  match a with
  | ⟨0, _⟩ => show win1_2.index ⟨(i 0).val / 10000, ht⟩ (0 : Fin 2) * 10000 ≤ (i 0).val ∧ (i 0).val < win1_2.index ⟨(i 0).val / 10000, ht⟩ (0 : Fin 2) * 10000 + 10000; rw [e4]; show (i 0).val / 10000 * 10000 ≤ (i 0).val ∧ (i 0).val < (i 0).val / 10000 * 10000 + 10000; omega
  | ⟨1, _⟩ => show win1_2.index ⟨(i 0).val / 10000, ht⟩ (1 : Fin 2) * 128 ≤ (i 1).val ∧ (i 1).val < win1_2.index ⟨(i 0).val / 10000, ht⟩ (1 : Fin 2) * 128 + 128; omega

/-- The output array after the region is max(A + b, 0). -/
theorem region1 (c : Dev nD) (b : FVec Ideal Cert.ReferenceIdeal.S128 .f32)
    (hB : V c main_v46 = shapeCast S1x128 b shapeCasts_S128_S1x128) :
    (dat1 V c).arrAt 2 cfg1.N = activated (V c main_v45) b :=
  (dat1 V c).arrAt_eq_of_cover 2 _ (fun t _ => flushed1 V c t b hB) cover1

end Region

end Cert.KernelIdeal.Blocks

end
-- ==== Proof.Region2.lean ====
/-
  The first 64-column matrix-product region: the array it leaves is the whole product.

  Ten grid points; at point t the region stages rows 10000·t … 10000·t + 9999 of the left matrix H (100000 × 128) and
  the whole right matrix W (128 × 64), multiplies the row block by W into an accumulator of zeros and writes the
  result back as rows 10000·t … of the output. Entry (p, q) of the block product is the sum over the 128 contracted
  coordinates of H(10000·t + p, c) · W(c, q), the entry (10000·t + p, q) of H · W; the ten blocks tile the output.
-/
import proofs.«123272_j51823075393706_1_alg».proof.Proof.Region0

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The whole product of a 100000 × 128 matrix by a 128 × 64 matrix, as the host computes it. -/
abbrev product64 (H : FVec Ideal Cert.ReferenceIdeal.S100000x128 .f32) (W : FVec Ideal Cert.ReferenceIdeal.S128x64 .f32) :
    FVec Ideal Cert.ReferenceIdeal.S100000x64 .f32 :=
  Host.dotGeneral Cert.ReferenceIdeal.dot_S100000x128_S128x64_S100000x64_1_0_0_1_n_n none H W

/-- The body's product of a block of 10000 rows by the right matrix, at entry (p, q), is the whole product at
    (r, q), when row p of the block is row r of the left matrix and the staged right matrix is the right matrix.
    (The body first casts the block to its own shape, which changes nothing.) -/
theorem product64_block2 (H : FVec Ideal Cert.ReferenceIdeal.S100000x128 .f32) (W : FVec Ideal Cert.ReferenceIdeal.S128x64 .f32)
    (x0 : Vec Ideal S10000x128 .f32) (x1 : Vec Ideal S128x64 .f32) (p : Fin 10000) (q : Fin 64) (r : Fin 100000)
    (hx : ∀ k : Fin 128, x0 (ix2 p k) = H (ix2 r k)) (hw : ∀ k : Fin 128, x1 (ix2 k q) = W (ix2 k q)) :
    k2_pay1 (F := Ideal) x0 x1 (ix2 p q) = product64 H W (ix2 r q) := by
  unfold k2_pay1
  refine matmul_rowblock_apply _ _ none none H W _ _ p q r ?_ hw
  intro k
  exact (congrFun (shapeCast_self x0 shapeCasts_S10000x128_S10000x128) (ix2 p k)).trans (hx k)

section Region
variable (V : (c : Dev nD) → (b : Ref sig .tc) → Buf (Elt Ideal) ((c : Thread nD τ).loc b))

/-- Where the three windows' blocks sit at point t. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the arrays the region finds. -/
theorem flushed2 (c : Dev nD) (t : Fin cfg2.N) :
    (dat2 V c).flushed 2 t
      = ((cfg2.win 2).blk t).view.read (Elt Ideal) (product64 (V c main_v47) (V c main_arg4)) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S128x64) zero_offsets]
  obtain ⟨e0, e1, e2, e3, e4, e5⟩ := index_facts2 t
  funext j
  obtain ⟨p, q, rfl⟩ : ∃ (p : Fin 10000) (q : Fin 64), j = ix2 p q := ⟨j 0, j 1, eq_ix2 j⟩
  have hr : t.val * 10000 + p.val < 100000 := by have ht : t.val < 10 := t.isLt; have hp : p.val < 10000 := p.isLt; omega
  show k2_pay1 (iblk2 V c 0 t) (iblk2 V c 1 t) (ix2 p q)
    = product64 (V c main_v47) (V c main_arg4) (((cfg2.win 2).blk t).view.emb (ix2 p q))
  have hemb : ((cfg2.win 2).blk t).view.emb (ix2 p q) = ix2 (⟨t.val * 10000 + p.val, hr⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  rw [hemb]
  refine product64_block2 (V c main_v47) (V c main_arg4) (iblk2 V c 0 t) (iblk2 V c 1 t) p q ⟨t.val * 10000 + p.val, hr⟩ ?_ ?_
  · intro k
    show V c main_v47 (((cfg2.win 0).blk t).view.emb (ix2 p k)) = V c main_v47 (ix2 ⟨t.val * 10000 + p.val, hr⟩ k)
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 128 + 1 * k.val = k.val; omega
  · intro k
    show V c main_arg4 (((cfg2.win 1).blk t).view.emb (ix2 k q)) = V c main_arg4 (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega

/-- An index of the output is in point t's block iff each coordinate is in the block's range on its axis. -/
theorem mem_block2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v48).slice (win2_2.rect t)).set ↔ _
  rw [View.set_slice_whole, Rect.mem_set_unit]
  exact Iff.rfl

/-- The ten row blocks tile the output: row r lies in block r / 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 10000 < 10 := by omega
  refine ⟨⟨(i 0).val / 10000, ht⟩, flush2_2 _, ?_⟩
  rw [mem_block2]
  obtain ⟨e0, e1, e2, e3, e4, e5⟩ := index_facts2 ⟨(i 0).val / 10000, ht⟩
  intro a
  match a with
  | ⟨0, _⟩ => show win2_2.index ⟨(i 0).val / 10000, ht⟩ (0 : Fin 2) * 10000 ≤ (i 0).val ∧ (i 0).val < win2_2.index ⟨(i 0).val / 10000, ht⟩ (0 : Fin 2) * 10000 + 10000; rw [e4]; show (i 0).val / 10000 * 10000 ≤ (i 0).val ∧ (i 0).val < (i 0).val / 10000 * 10000 + 10000; omega
  | ⟨1, _⟩ => show win2_2.index ⟨(i 0).val / 10000, ht⟩ (1 : Fin 2) * 64 ≤ (i 1).val ∧ (i 1).val < win2_2.index ⟨(i 0).val / 10000, ht⟩ (1 : Fin 2) * 64 + 64; omega

/-- The output array after the region is the whole product of the arrays the region finds. -/
theorem region2 (c : Dev nD) :
    (dat2 V c).arrAt 2 cfg2.N = product64 (V c main_v47) (V c main_arg4) :=
  (dat2 V c).arrAt_eq_of_cover 2 _ (fun t _ => flushed2 V c t) cover2

end Region

end Cert.KernelIdeal.Blocks

end
-- ==== Proof.Region3.lean ====
/-
  The second 64-column matrix-product region: the array it leaves is the whole product.

  Ten grid points; at point t the region stages rows 10000·t … 10000·t + 9999 of the left matrix H (100000 × 128) and
  the whole right matrix W (128 × 64), multiplies the row block by W into an accumulator of zeros and writes the
  result back as rows 10000·t … of the output. Entry (p, q) of the block product is the sum over the 128 contracted
  coordinates of H(10000·t + p, c) · W(c, q), the entry (10000·t + p, q) of H · W; the ten blocks tile the output.
-/
import proofs.«123272_j51823075393706_1_alg».proof.Proof.Region2

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The body's product of a block of 10000 rows by the right matrix, at entry (p, q), is the whole product at
    (r, q), when row p of the block is row r of the left matrix and the staged right matrix is the right matrix.
    (The body first casts the block to its own shape, which changes nothing.) -/
theorem product64_block3 (H : FVec Ideal Cert.ReferenceIdeal.S100000x128 .f32) (W : FVec Ideal Cert.ReferenceIdeal.S128x64 .f32)
    (x0 : Vec Ideal S10000x128 .f32) (x1 : Vec Ideal S128x64 .f32) (p : Fin 10000) (q : Fin 64) (r : Fin 100000)
    (hx : ∀ k : Fin 128, x0 (ix2 p k) = H (ix2 r k)) (hw : ∀ k : Fin 128, x1 (ix2 k q) = W (ix2 k q)) :
    k3_pay1 (F := Ideal) x0 x1 (ix2 p q) = product64 H W (ix2 r q) := by
  unfold k3_pay1
  refine matmul_rowblock_apply _ _ none none H W _ _ p q r ?_ hw
  intro k
  exact (congrFun (shapeCast_self x0 shapeCasts_S10000x128_S10000x128) (ix2 p k)).trans (hx k)

section Region
variable (V : (c : Dev nD) → (b : Ref sig .tc) → Buf (Elt Ideal) ((c : Thread nD τ).loc b))

/-- Where the three windows' blocks sit at point t. -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole product of the arrays the region finds. -/
theorem flushed3 (c : Dev nD) (t : Fin cfg3.N) :
    (dat3 V c).flushed 2 t
      = ((cfg3.win 2).blk t).view.read (Elt Ideal) (product64 (V c main_v47) (V c main_arg6)) := by
  show (cfg3.win 2).cut (grid3.coords t) ((dat3 V c).after 2 t) = _
  rw [after3_2]
  unfold out3_2
  rw [View.canon_unit_zero zero_offsets]
  simp only [View.ld_unit_zero (S := S10000x128) zero_offsets, View.ld_unit_zero (S := S128x64) zero_offsets]
  obtain ⟨e0, e1, e2, e3, e4, e5⟩ := index_facts3 t
  funext j
  obtain ⟨p, q, rfl⟩ : ∃ (p : Fin 10000) (q : Fin 64), j = ix2 p q := ⟨j 0, j 1, eq_ix2 j⟩
  have hr : t.val * 10000 + p.val < 100000 := by have ht : t.val < 10 := t.isLt; have hp : p.val < 10000 := p.isLt; omega
  show k3_pay1 (iblk3 V c 0 t) (iblk3 V c 1 t) (ix2 p q)
    = product64 (V c main_v47) (V c main_arg6) (((cfg3.win 2).blk t).view.emb (ix2 p q))
  have hemb : ((cfg3.win 2).blk t).view.emb (ix2 p q) = ix2 (⟨t.val * 10000 + p.val, hr⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  rw [hemb]
  refine product64_block3 (V c main_v47) (V c main_arg6) (iblk3 V c 0 t) (iblk3 V c 1 t) p q ⟨t.val * 10000 + p.val, hr⟩ ?_ ?_
  · intro k
    show V c main_v47 (((cfg3.win 0).blk t).view.emb (ix2 p k)) = V c main_v47 (ix2 ⟨t.val * 10000 + p.val, hr⟩ k)
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 128 + 1 * k.val = k.val; omega
  · intro k
    show V c main_arg6 (((cfg3.win 1).blk t).view.emb (ix2 k q)) = V c main_arg6 (ix2 k q)
    refine congrArg _ (funext fun a => Fin.ext ?_)
    match a with
    | ⟨0, _⟩ => show win3_1.index t (0 : Fin 2) * 128 + 1 * k.val = k.val; omega
    | ⟨1, _⟩ => show win3_1.index t (1 : Fin 2) * 64 + 1 * q.val = q.val; omega

/-- An index of the output is in point t's block iff each coordinate is in the block's range on its axis. -/
theorem mem_block3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v62).slice (win3_2.rect t)).set ↔ _
  rw [View.set_slice_whole, Rect.mem_set_unit]
  exact Iff.rfl

/-- The ten row blocks tile the output: row r lies in block r / 10000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have ht : (i 0).val / 10000 < 10 := by omega
  refine ⟨⟨(i 0).val / 10000, ht⟩, flush3_2 _, ?_⟩
  rw [mem_block3]
  obtain ⟨e0, e1, e2, e3, e4, e5⟩ := index_facts3 ⟨(i 0).val / 10000, ht⟩
  intro a
  match a with
  | ⟨0, _⟩ => show win3_2.index ⟨(i 0).val / 10000, ht⟩ (0 : Fin 2) * 10000 ≤ (i 0).val ∧ (i 0).val < win3_2.index ⟨(i 0).val / 10000, ht⟩ (0 : Fin 2) * 10000 + 10000; rw [e4]; show (i 0).val / 10000 * 10000 ≤ (i 0).val ∧ (i 0).val < (i 0).val / 10000 * 10000 + 10000; omega
  | ⟨1, _⟩ => show win3_2.index ⟨(i 0).val / 10000, ht⟩ (1 : Fin 2) * 64 ≤ (i 1).val ∧ (i 1).val < win3_2.index ⟨(i 0).val / 10000, ht⟩ (1 : Fin 2) * 64 + 64; omega

/-- The output array after the region is the whole product of the arrays the region finds. -/
theorem region3 (c : Dev nD) :
    (dat3 V c).arrAt 2 cfg3.N = product64 (V c main_v47) (V c main_arg6) :=
  (dat3 V c).arrAt_eq_of_cover 2 _ (fun t _ => flushed3 V c t) cover3

end Region

end Cert.KernelIdeal.Blocks

end
-- ==== Proof.Region4.lean ====
/-
  The last region: the three arrays it leaves are mu = Aμ + bμ, logvar = Aσ + bσ and z = mu + ε · exp(0.5 · logvar).

  Twenty grid points; at point t the region stages rows 5000·t … 5000·t + 4999 of the two aggregated matrices Aμ, Aσ
  and of the noise ε (each 100000 × 64) and the two bias vectors laid out as one-row matrices, and writes back the
  same rows of its three outputs. Everything is entry by entry: at (p, q) of the block, mu is
  Aμ(5000·t + p, q) + bμ(q), logvar is Aσ(5000·t + p, q) + bσ(q), and z is mu + ε · exp(0.5 · logvar) there. The host's
  forms of the three arrays (the bias vectors broadcast over the rows, the constant 0.5 broadcast over the matrix, the
  host's exponential) read the same at (r, q): both exponentials are the one exponential of the extended reals.
-/
import proofs.«123272_j51823075393706_1_alg».proof.Proof.Region0
import proofs.«123272_j51823075393706_1_alg».proof.Proof.RefReadPatched
import Idealize.ShloMosaic.Lib.ValueLayout

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.ReferenceIdeal.ReadP

/-- mu as the host spells it: the aggregated matrix plus its bias vector broadcast over the rows. -/
abbrev mean (A : FVec Ideal Cert.ReferenceIdeal.S100000x64 .f32) (b : FVec Ideal Cert.ReferenceIdeal.S64 .f32) :
    FVec Ideal Cert.ReferenceIdeal.S100000x64 .f32 := addf A (val_main_v65 (F := Ideal) b)
/-- logvar as the host spells it. -/
abbrev logvar (A : FVec Ideal Cert.ReferenceIdeal.S100000x64 .f32) (b : FVec Ideal Cert.ReferenceIdeal.S64 .f32) :
    FVec Ideal Cert.ReferenceIdeal.S100000x64 .f32 := addf A (val_main_v82 (F := Ideal) b)
/-- z = mu + ε · exp(0.5 · logvar) as the host spells it. -/
abbrev sample (Amu : FVec Ideal Cert.ReferenceIdeal.S100000x64 .f32) (bmu : FVec Ideal Cert.ReferenceIdeal.S64 .f32)
    (Alv : FVec Ideal Cert.ReferenceIdeal.S100000x64 .f32) (blv : FVec Ideal Cert.ReferenceIdeal.S64 .f32)
    (eps : FVec Ideal Cert.ReferenceIdeal.S100000x64 .f32) : FVec Ideal Cert.ReferenceIdeal.S100000x64 .f32 :=
  addf (mean Amu bmu) (mulf eps (Host.exp (mulf (val_main_v84 (F := Ideal)) (logvar Alv blv))))

/-- Each bias vector broadcast over the rows reads b(q) at (r, q); the broadcast constant reads one half. -/
theorem bias_rows_mu (b : FVec Ideal Cert.ReferenceIdeal.S64 .f32) (r : Fin 100000) (q : Fin 64) :
    val_main_v65 (F := Ideal) b (ix2 r q) = b (ix1 q) := by
  rw [val_main_v65_apply, val_main_v64_apply]
  exact congrArg b (funext fun a => Fin.ext (by match a with | ⟨0, _⟩ => rfl))
theorem bias_rows_lv (b : FVec Ideal Cert.ReferenceIdeal.S64 .f32) (r : Fin 100000) (q : Fin 64) :
    val_main_v82 (F := Ideal) b (ix2 r q) = b (ix1 q) := by
  rw [val_main_v82_apply, val_main_v81_apply]
  exact congrArg b (funext fun a => Fin.ext (by match a with | ⟨0, _⟩ => rfl))
theorem half_everywhere (r : Fin 100000) (q : Fin 64) :
    val_main_v84 (F := Ideal) (ix2 r q) = Ideal.ofBits .f32 0x3F000000#32 := by
  rw [val_main_v84_apply]; rfl

/-- The body's mu at (p, q) of a block is the host's at (r, q). -/
theorem mean_block (A : FVec Ideal Cert.ReferenceIdeal.S100000x64 .f32) (b : FVec Ideal Cert.ReferenceIdeal.S64 .f32)
    (x0 : Vec Ideal S5000x64 .f32) (x2 : Vec Ideal S1x64 .f32) (p : Fin 5000) (q : Fin 64) (r : Fin 100000)
    (hx : x0 (ix2 p q) = A (ix2 r q)) (hb : x2 (ix2 (0 : Fin 1) q) = b (ix1 q)) :
    k4_pay1 (F := Ideal) x0 x2 (ix2 p q) = mean A b (ix2 r q) := by
  unfold k4_pay1
  show shapeCast S5000x64 x0 shapeCasts_S5000x64_S5000x64 (ix2 p q)
        + broadcastTo S5000x64 (shapeCast S1x64 x2 shapeCasts_S1x64_S1x64) broadcasts_S1x64_S5000x64 (ix2 p q)
    = A (ix2 r q) + val_main_v65 (F := Ideal) b (ix2 r q)
  rw [shapeCast_self, broadcastTo_1b_ab_apply, shapeCast_self, hx, hb, bias_rows_mu]
/-- The body's logvar at (p, q) of a block is the host's at (r, q). -/
theorem logvar_block (A : FVec Ideal Cert.ReferenceIdeal.S100000x64 .f32) (b : FVec Ideal Cert.ReferenceIdeal.S64 .f32)
    (x6 : Vec Ideal S5000x64 .f32) (x8 : Vec Ideal S1x64 .f32) (p : Fin 5000) (q : Fin 64) (r : Fin 100000)
    (hx : x6 (ix2 p q) = A (ix2 r q)) (hb : x8 (ix2 (0 : Fin 1) q) = b (ix1 q)) :
    k4_pay2 (F := Ideal) x6 x8 (ix2 p q) = logvar A b (ix2 r q) := by
  unfold k4_pay2
  show shapeCast S5000x64 x6 shapeCasts_S5000x64_S5000x64 (ix2 p q)
        + broadcastTo S5000x64 (shapeCast S1x64 x8 shapeCasts_S1x64_S1x64) broadcasts_S1x64_S5000x64 (ix2 p q)
    = A (ix2 r q) + val_main_v82 (F := Ideal) b (ix2 r q)
  rw [shapeCast_self, broadcastTo_1b_ab_apply, shapeCast_self, hx, hb, bias_rows_lv]
/-- The body's z at (p, q) of a block is the host's at (r, q). -/
theorem sample_block (Amu : FVec Ideal Cert.ReferenceIdeal.S100000x64 .f32) (bmu : FVec Ideal Cert.ReferenceIdeal.S64 .f32)
    (Alv : FVec Ideal Cert.ReferenceIdeal.S100000x64 .f32) (blv : FVec Ideal Cert.ReferenceIdeal.S64 .f32)
    (eps : FVec Ideal Cert.ReferenceIdeal.S100000x64 .f32)
    (x0 : Vec Ideal S5000x64 .f32) (x2 : Vec Ideal S1x64 .f32) (x6 : Vec Ideal S5000x64 .f32) (x8 : Vec Ideal S1x64 .f32)
    (x12 : Vec Ideal S5000x64 .f32) (p : Fin 5000) (q : Fin 64) (r : Fin 100000)
    (h0 : x0 (ix2 p q) = Amu (ix2 r q)) (h2 : x2 (ix2 (0 : Fin 1) q) = bmu (ix1 q))
    (h6 : x6 (ix2 p q) = Alv (ix2 r q)) (h8 : x8 (ix2 (0 : Fin 1) q) = blv (ix1 q))
    (h12 : x12 (ix2 p q) = eps (ix2 r q)) :
    k4_pay3 (F := Ideal) x0 x2 x6 x8 x12 (ix2 p q) = sample Amu bmu Alv blv eps (ix2 r q) := by
  unfold k4_pay3
  show k4_pay1 (F := Ideal) x0 x2 (ix2 p q)
        + x12 (ix2 p q) * Ideal.exp (Ideal.ofBits .f32 0x3F000000#32 * k4_pay2 (F := Ideal) x6 x8 (ix2 p q))
    = mean Amu bmu (ix2 r q)
        + eps (ix2 r q) * Ideal.exp (val_main_v84 (F := Ideal) (ix2 r q) * logvar Alv blv (ix2 r q))
  rw [mean_block Amu bmu x0 x2 p q r h0 h2, logvar_block Alv blv x6 x8 p q r h6 h8, h12, half_everywhere]

section Region
variable (V : (c : Dev nD) → (b : Ref sig .tc) → Buf (Elt Ideal) ((c : Thread nD τ).loc b))

/-- Where the eight windows' blocks sit at point t: the six row-blocked arrays at block t, the two bias rows at their
    one block. -/
theorem index_facts4 : ∀ t : Fin cfg4.N, win4_0.index t (0 : Fin 2) = t.val ∧ win4_0.index t (1 : Fin 2) = 0
    ∧ win4_2.index t (0 : Fin 2) = t.val ∧ win4_2.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0
    ∧ win4_1.index t (0 : Fin 2) = 0 ∧ win4_1.index t (1 : Fin 2) = 0
    ∧ win4_3.index t (0 : Fin 2) = 0 ∧ win4_3.index t (1 : Fin 2) = 0 :=
  (by decide +kernel : ∀ t : Fin grid4.N, _)

/-- What point t writes back into output 6 is block t of mu. -/
theorem flushed4_6 (c : Dev nD) (t : Fin cfg4.N) (bmu blv : FVec Ideal Cert.ReferenceIdeal.S64 .f32)
    (hmu : V c main_v76 = shapeCast S1x64 bmu shapeCasts_S64_S1x64) (hlv : V c main_v77 = shapeCast S1x64 blv shapeCasts_S64_S1x64) :
    (dat4 V c).flushed 6 t = ((cfg4.win 6).blk t).view.read (Elt Ideal) (mean (V c main_v61) bmu) := by
  show (cfg4.win 6).cut (grid4.coords t) ((dat4 V c).after 6 t) = _
  rw [after4_6]
  unfold out4_6
  rw [View.canon_unit_zero zero_offsets]
  simp only [View.ld_unit_zero (S := S5000x64) zero_offsets, View.ld_unit_zero (S := S1x64) zero_offsets]
  obtain ⟨r0a, r0b, r2a, r2b, r4a, r4b, r5a, r5b, r6a, r6b, r7a, r7b, f1a, f1b, f3a, f3b⟩ := index_facts4 t
  funext j
  obtain ⟨p, q, rfl⟩ : ∃ (p : Fin 5000) (q : Fin 64), j = ix2 p q := ⟨j 0, j 1, eq_ix2 j⟩
  have hr : t.val * 5000 + p.val < 100000 := by have ht : t.val < 20 := t.isLt; have hp : p.val < 5000 := p.isLt; omega
  show _ = (mean (V c main_v61) bmu) (((cfg4.win 6).blk t).view.emb (ix2 p q))
  have hemb : ((cfg4.win 6).blk t).view.emb (ix2 p q) = ix2 (⟨t.val * 5000 + p.val, hr⟩ : Fin 100000) q := by
    funext a; apply Fin.ext
    match a with
    | ⟨0, _⟩ => show win4_6.index t (0 : Fin 2) * 5000 + 1 * p.val = t.val * 5000 + p.val; omega
    | ⟨1, _⟩ => show win4_6.index t (1 : Fin 2) * 64 + 1 * q.val = q.val; omega
  rw [hemb]
  refine mean_block (V c main_v61) bmu (iblk4 V c 0 t) (iblk4 V c 1 t) p q ⟨t.val * 5000 + p.val, hr⟩ ?_ ?_
  ·
    show V c main_v61 (((cfg4.win 0).blk t).view.emb (ix2 p q)) = V c main_v61 (ix2 ⟨t.val * 5000 + p.val, hr⟩ q)
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 64 + 1 * q.val = q.val; omega
  ·
    show V c main_v76 (((cfg4.win 1).blk t).view.emb (ix2 (0 : Fin 1) q)) = bmu (ix1 q)
    have hrow : ((cfg4.win 1).blk t).view.emb (ix2 (0 : Fin 1) q) = ix2 (0 : Fin 1) q := by
      funext a; apply Fin.ext
      match a with
      | ⟨0, _⟩ => show win4_1.index t (0 : Fin 2) * 1 + 1 * 0 = 0; omega
      | ⟨1, _⟩ => show win4_1.index t (1 : Fin 2) * 64 + 1 * q.val = q.val; omega
    rw [hrow, hmu]
    exact shapeCast_a_1a_apply bmu shapeCasts_S64_S1x64 0 q

/-- An index of output 6 is in point t's block iff each coordinate is in the block's range on its axis. -/
theorem mem_block4_6 (t : Fin cfg4.N) (i : S100000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v78_1).slice (win4_6.rect t)).set ↔ _
  rw [View.set_slice_whole, Rect.mem_set_unit]
  exact Iff.rfl

/-- The twenty row blocks tile output 6: row r lies in block r / 5000. -/
theorem cover4_6_rows (i : S100000x64.Idx) :
    ∃ t : Fin cfg4.N, (cfg4.win 6).flush t = true ∧ i ∈ ((cfg4.win 6).blk t).view.set := by
  have hi0 : (i 0).val < 100000 := (i 0).isLt
  have hi1 : (i 1).val < 64 := (i 1).isLt
  have ht : (i 0).val / 5000 < 20 := by omega
  refine ⟨⟨(i 0).val / 5000, ht⟩, flush4_6 _, ?_⟩
  rw [mem_block4_6]
  obtain ⟨r0a, r0b, r2a, r2b, r4a, r4b, r5a, r5b, r6a, r6b, r7a, r7b, f1a, f1b, f3a, f3b⟩ := index_facts4 ⟨(i 0).val / 5000, ht⟩
  intro a
  match a with
  | ⟨0, _⟩ => show win4_6.index ⟨(i 0).val / 5000, ht⟩ (0 : Fin 2) * 5000 ≤ (i 0).val ∧ (i 0).val < win4_6.index ⟨(i 0).val / 5000, ht⟩ (0 : Fin 2) * 5000 + 5000; rw [r6a]; show (i 0).val / 5000 * 5000 ≤ (i 0).val ∧ (i 0).val < (i 0).val / 5000 * 5000 + 5000; omega
  | ⟨1, _⟩ => show win4_6.index ⟨(i 0).val / 5000, ht⟩ (1 : Fin 2) * 64 ≤ (i 1).val ∧ (i 1).val < win4_6.index ⟨(i 0).val / 5000, ht⟩ (1 : Fin 2) * 64 + 64; omega

/-- What point t writes back into output 7 is block t of logvar. -/
theorem flushed4_7 (c : Dev nD) (t : Fin cfg4.N) (bmu blv : FVec Ideal Cert.ReferenceIdeal.S64 .f32)
    (hmu : V c main_v76 = shapeCast S1x64 bmu shapeCasts_S64_S1x64) (hlv : V c main_v77 = shapeCast S1x64 blv shapeCasts_S64_S1x64) :
    (dat4 V c).flushed 7 t = ((cfg4.win 7).blk t).view.read (Elt Ideal) (logvar (V c main_v75) blv) := by
  show (cfg4.win 7).cut (grid4.coords t) ((dat4 V c).after 7 t) = _
  rw [after4_7]
  unfold out4_7
  rw [View.canon_unit_zero zero_offsets]
  simp only [View.ld_unit_zero (S := S5000x64) zero_offsets, View.ld_unit_zero (S := S1x64) zero_offsets]
  obtain ⟨r0a, r0b, r2a, r2b, r4a, r4b, r5a, r5b, r6a, r6b, r7a, r7b, f1a, f1b, f3a, f3b⟩ := index_facts4 t
  funext j
  obtain ⟨p, q, rfl⟩ : ∃ (p : Fin 5000) (q : Fin 64), j = ix2 p q := ⟨j 0, j 1, eq_ix2 j⟩
  have hr : t.val * 5000 + p.val < 100000 := by have ht : t.val < 20 := t.isLt; have hp : p.val < 5000 := p.isLt; omega
  show _ = (logvar (V c main_v75) blv) (((cfg4.win 7).blk t).view.emb (ix2 p q))
  have hemb : ((cfg4.win 7).blk t).view.emb (ix2 p q) = ix2 (⟨t.val * 5000 + p.val, hr⟩ : Fin 100000) q := by
    funext a; apply Fin.ext
    match a with
    | ⟨0, _⟩ => show win4_7.index t (0 : Fin 2) * 5000 + 1 * p.val = t.val * 5000 + p.val; omega
    | ⟨1, _⟩ => show win4_7.index t (1 : Fin 2) * 64 + 1 * q.val = q.val; omega
  rw [hemb]
  refine logvar_block (V c main_v75) blv (iblk4 V c 2 t) (iblk4 V c 3 t) p q ⟨t.val * 5000 + p.val, hr⟩ ?_ ?_
  ·
    show V c main_v75 (((cfg4.win 2).blk t).view.emb (ix2 p q)) = V c main_v75 (ix2 ⟨t.val * 5000 + p.val, hr⟩ q)
    refine congrArg _ (funext fun a => Fin.ext ?_)
    match a with
    | ⟨0, _⟩ => show win4_2.index t (0 : Fin 2) * 5000 + 1 * p.val = t.val * 5000 + p.val; omega
    | ⟨1, _⟩ => show win4_2.index t (1 : Fin 2) * 64 + 1 * q.val = q.val; omega
  ·
    show V c main_v77 (((cfg4.win 3).blk t).view.emb (ix2 (0 : Fin 1) q)) = blv (ix1 q)
    have hrow : ((cfg4.win 3).blk t).view.emb (ix2 (0 : Fin 1) q) = ix2 (0 : Fin 1) q := by
      funext a; apply Fin.ext
      match a with
      | ⟨0, _⟩ => show win4_3.index t (0 : Fin 2) * 1 + 1 * 0 = 0; omega
      | ⟨1, _⟩ => show win4_3.index t (1 : Fin 2) * 64 + 1 * q.val = q.val; omega
    rw [hrow, hlv]
    exact shapeCast_a_1a_apply blv shapeCasts_S64_S1x64 0 q

/-- An index of output 7 is in point t's block iff each coordinate is in the block's range on its axis. -/
theorem mem_block4_7 (t : Fin cfg4.N) (i : S100000x64.Idx) :
    i ∈ ((cfg4.win 7).blk t).view.set ↔ ∀ a : Fin 2, win4_7.index t a * S5000x64.size a ≤ (i a).val ∧ (i a).val < win4_7.index t a * S5000x64.size a + S5000x64.size a := by
  show i ∈ ((View.whole main_v78_2).slice (win4_7.rect t)).set ↔ _
  rw [View.set_slice_whole, Rect.mem_set_unit]
  exact Iff.rfl

/-- The twenty row blocks tile output 7: row r lies in block r / 5000. -/
theorem cover4_7_rows (i : S100000x64.Idx) :
    ∃ t : Fin cfg4.N, (cfg4.win 7).flush t = true ∧ i ∈ ((cfg4.win 7).blk t).view.set := by
  have hi0 : (i 0).val < 100000 := (i 0).isLt
  have hi1 : (i 1).val < 64 := (i 1).isLt
  have ht : (i 0).val / 5000 < 20 := by omega
  refine ⟨⟨(i 0).val / 5000, ht⟩, flush4_7 _, ?_⟩
  rw [mem_block4_7]
  obtain ⟨r0a, r0b, r2a, r2b, r4a, r4b, r5a, r5b, r6a, r6b, r7a, r7b, f1a, f1b, f3a, f3b⟩ := index_facts4 ⟨(i 0).val / 5000, ht⟩
  intro a
  match a with
  | ⟨0, _⟩ => show win4_7.index ⟨(i 0).val / 5000, ht⟩ (0 : Fin 2) * 5000 ≤ (i 0).val ∧ (i 0).val < win4_7.index ⟨(i 0).val / 5000, ht⟩ (0 : Fin 2) * 5000 + 5000; rw [r7a]; show (i 0).val / 5000 * 5000 ≤ (i 0).val ∧ (i 0).val < (i 0).val / 5000 * 5000 + 5000; omega
  | ⟨1, _⟩ => show win4_7.index ⟨(i 0).val / 5000, ht⟩ (1 : Fin 2) * 64 ≤ (i 1).val ∧ (i 1).val < win4_7.index ⟨(i 0).val / 5000, ht⟩ (1 : Fin 2) * 64 + 64; omega

/-- What point t writes back into output 5 is block t of z. -/
theorem flushed4_5 (c : Dev nD) (t : Fin cfg4.N) (bmu blv : FVec Ideal Cert.ReferenceIdeal.S64 .f32)
    (hmu : V c main_v76 = shapeCast S1x64 bmu shapeCasts_S64_S1x64) (hlv : V c main_v77 = shapeCast S1x64 blv shapeCasts_S64_S1x64) :
    (dat4 V c).flushed 5 t = ((cfg4.win 5).blk t).view.read (Elt Ideal) (sample (V c main_v61) bmu (V c main_v75) blv (V c main_arg8)) := by
  show (cfg4.win 5).cut (grid4.coords t) ((dat4 V c).after 5 t) = _
  rw [after4_5]
  unfold out4_5
  rw [View.canon_unit_zero zero_offsets]
  simp only [View.ld_unit_zero (S := S5000x64) zero_offsets, View.ld_unit_zero (S := S1x64) zero_offsets]
  obtain ⟨r0a, r0b, r2a, r2b, r4a, r4b, r5a, r5b, r6a, r6b, r7a, r7b, f1a, f1b, f3a, f3b⟩ := index_facts4 t
  funext j
  obtain ⟨p, q, rfl⟩ : ∃ (p : Fin 5000) (q : Fin 64), j = ix2 p q := ⟨j 0, j 1, eq_ix2 j⟩
  have hr : t.val * 5000 + p.val < 100000 := by have ht : t.val < 20 := t.isLt; have hp : p.val < 5000 := p.isLt; omega
  show _ = (sample (V c main_v61) bmu (V c main_v75) blv (V c main_arg8)) (((cfg4.win 5).blk t).view.emb (ix2 p q))
  have hemb : ((cfg4.win 5).blk t).view.emb (ix2 p q) = ix2 (⟨t.val * 5000 + p.val, hr⟩ : Fin 100000) q := by
    funext a; apply Fin.ext
    match a with
    | ⟨0, _⟩ => show win4_5.index t (0 : Fin 2) * 5000 + 1 * p.val = t.val * 5000 + p.val; omega
    | ⟨1, _⟩ => show win4_5.index t (1 : Fin 2) * 64 + 1 * q.val = q.val; omega
  rw [hemb]
  refine sample_block (V c main_v61) bmu (V c main_v75) blv (V c main_arg8) (iblk4 V c 0 t) (iblk4 V c 1 t) (iblk4 V c 2 t) (iblk4 V c 3 t) (iblk4 V c 4 t) p q ⟨t.val * 5000 + p.val, hr⟩ ?_ ?_ ?_ ?_ ?_
  ·
    show V c main_v61 (((cfg4.win 0).blk t).view.emb (ix2 p q)) = V c main_v61 (ix2 ⟨t.val * 5000 + p.val, hr⟩ q)
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 64 + 1 * q.val = q.val; omega
  ·
    show V c main_v76 (((cfg4.win 1).blk t).view.emb (ix2 (0 : Fin 1) q)) = bmu (ix1 q)
    have hrow : ((cfg4.win 1).blk t).view.emb (ix2 (0 : Fin 1) q) = ix2 (0 : Fin 1) q := by
      funext a; apply Fin.ext
      match a with
      | ⟨0, _⟩ => show win4_1.index t (0 : Fin 2) * 1 + 1 * 0 = 0; omega
      | ⟨1, _⟩ => show win4_1.index t (1 : Fin 2) * 64 + 1 * q.val = q.val; omega
    rw [hrow, hmu]
    exact shapeCast_a_1a_apply bmu shapeCasts_S64_S1x64 0 q
  ·
    show V c main_v75 (((cfg4.win 2).blk t).view.emb (ix2 p q)) = V c main_v75 (ix2 ⟨t.val * 5000 + p.val, hr⟩ q)
    refine congrArg _ (funext fun a => Fin.ext ?_)
    match a with
    | ⟨0, _⟩ => show win4_2.index t (0 : Fin 2) * 5000 + 1 * p.val = t.val * 5000 + p.val; omega
    | ⟨1, _⟩ => show win4_2.index t (1 : Fin 2) * 64 + 1 * q.val = q.val; omega
  ·
    show V c main_v77 (((cfg4.win 3).blk t).view.emb (ix2 (0 : Fin 1) q)) = blv (ix1 q)
    have hrow : ((cfg4.win 3).blk t).view.emb (ix2 (0 : Fin 1) q) = ix2 (0 : Fin 1) q := by
      funext a; apply Fin.ext
      match a with
      | ⟨0, _⟩ => show win4_3.index t (0 : Fin 2) * 1 + 1 * 0 = 0; omega
      | ⟨1, _⟩ => show win4_3.index t (1 : Fin 2) * 64 + 1 * q.val = q.val; omega
    rw [hrow, hlv]
    exact shapeCast_a_1a_apply blv shapeCasts_S64_S1x64 0 q
  ·
    show V c main_arg8 (((cfg4.win 4).blk t).view.emb (ix2 p q)) = V c main_arg8 (ix2 ⟨t.val * 5000 + p.val, hr⟩ q)
    refine congrArg _ (funext fun a => Fin.ext ?_)
    match a with
    | ⟨0, _⟩ => show win4_4.index t (0 : Fin 2) * 5000 + 1 * p.val = t.val * 5000 + p.val; omega
    | ⟨1, _⟩ => show win4_4.index t (1 : Fin 2) * 64 + 1 * q.val = q.val; omega

/-- An index of output 5 is in point t's block iff each coordinate is in the block's range on its axis. -/
theorem mem_block4_5 (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v78_0).slice (win4_5.rect t)).set ↔ _
  rw [View.set_slice_whole, Rect.mem_set_unit]
  exact Iff.rfl

/-- The twenty row blocks tile output 5: row r lies in block r / 5000. -/
theorem cover4_5_rows (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have ht : (i 0).val / 5000 < 20 := by omega
  refine ⟨⟨(i 0).val / 5000, ht⟩, flush4_5 _, ?_⟩
  rw [mem_block4_5]
  obtain ⟨r0a, r0b, r2a, r2b, r4a, r4b, r5a, r5b, r6a, r6b, r7a, r7b, f1a, f1b, f3a, f3b⟩ := index_facts4 ⟨(i 0).val / 5000, ht⟩
  intro a
  match a with
  | ⟨0, _⟩ => show win4_5.index ⟨(i 0).val / 5000, ht⟩ (0 : Fin 2) * 5000 ≤ (i 0).val ∧ (i 0).val < win4_5.index ⟨(i 0).val / 5000, ht⟩ (0 : Fin 2) * 5000 + 5000; rw [r5a]; show (i 0).val / 5000 * 5000 ≤ (i 0).val ∧ (i 0).val < (i 0).val / 5000 * 5000 + 5000; omega
  | ⟨1, _⟩ => show win4_5.index ⟨(i 0).val / 5000, ht⟩ (1 : Fin 2) * 64 ≤ (i 1).val ∧ (i 1).val < win4_5.index ⟨(i 0).val / 5000, ht⟩ (1 : Fin 2) * 64 + 64; omega

/-- The three output arrays after the region. -/
theorem region4_mu (c : Dev nD) (bmu blv : FVec Ideal Cert.ReferenceIdeal.S64 .f32)
    (hmu : V c main_v76 = shapeCast S1x64 bmu shapeCasts_S64_S1x64) (hlv : V c main_v77 = shapeCast S1x64 blv shapeCasts_S64_S1x64) :
    (dat4 V c).arrAt 6 cfg4.N = mean (V c main_v61) bmu :=
  (dat4 V c).arrAt_eq_of_cover 6 _ (fun t _ => flushed4_6 V c t bmu blv hmu hlv) cover4_6_rows
theorem region4_lv (c : Dev nD) (bmu blv : FVec Ideal Cert.ReferenceIdeal.S64 .f32)
    (hmu : V c main_v76 = shapeCast S1x64 bmu shapeCasts_S64_S1x64) (hlv : V c main_v77 = shapeCast S1x64 blv shapeCasts_S64_S1x64) :
    (dat4 V c).arrAt 7 cfg4.N = logvar (V c main_v75) blv :=
  (dat4 V c).arrAt_eq_of_cover 7 _ (fun t _ => flushed4_7 V c t bmu blv hmu hlv) cover4_7_rows
theorem region4_z (c : Dev nD) (bmu blv : FVec Ideal Cert.ReferenceIdeal.S64 .f32)
    (hmu : V c main_v76 = shapeCast S1x64 bmu shapeCasts_S64_S1x64) (hlv : V c main_v77 = shapeCast S1x64 blv shapeCasts_S64_S1x64) :
    (dat4 V c).arrAt 5 cfg4.N = sample (V c main_v61) bmu (V c main_v75) blv (V c main_arg8) :=
  (dat4 V c).arrAt_eq_of_cover 5 _ (fun t _ => flushed4_5 V c t bmu blv hmu hlv) cover4_5_rows

end Region

end Cert.KernelIdeal.Blocks

end
-- ==== Proof.Walk.lean ====
/-
  The contents of the idealized kernel's live buffers at each boundary of its program, as stages of the reference.

  The program's boundaries are numbered 0 … 11: the launch, then one after each of the three opening stretches of host
  operations, the first product region, the first aggregation stretch, the activation region, the product region of
  the mu branch, its aggregation stretch, the product region of the logvar branch, its aggregation stretch, and the
  last region. For one core, each lemma `at<k>_<buffer>` states what a buffer holds at boundary k as a function of
  the nine argument arrays as launched. A buffer computed by a stretch or a region gets its value from that step's
  lemma; a buffer that the step leaves alone keeps what it held one boundary earlier. Read at boundary 11 and at
  the three result buffers, the chain ends at the reference's three result stages.
-/
import proofs.«123272_j51823075393706_1_alg».proof.Proof.HostStretches
import proofs.«123272_j51823075393706_1_alg».proof.Proof.Region1
import proofs.«123272_j51823075393706_1_alg».proof.Proof.Region3
import proofs.«123272_j51823075393706_1_alg».proof.Proof.Region4

set_option maxRecDepth 16384

noncomputable section

namespace Cert.KernelIdeal.Walk

open Cert.KernelIdeal Cert.KernelIdeal.Gen Cert.KernelIdeal.Stretches Cert.KernelIdeal.Blocks
open Idealize.ShloMosaic Idealize.ShloMosaic.TcCoe Idealize.ShloMosaic.StableHlo
open Idealize.SL Idealize.SL.Sem
open Cert.ReferenceIdeal.ReadP

variable (m : (ℓ : Loc nD τ sig) → Buf (Elt Ideal) ℓ) (ρ : Dev nD → PrngReg) (c : Dev nD)

/-! ## The argument arrays as launched -/

abbrev arg0 : (⟨Cert.ReferenceIdeal.S100000x128, .f32⟩ : BufTy).Contents (Elt Ideal) := m ((c : Thread nD τ).loc main_arg0)
abbrev arg1 : (⟨Cert.ReferenceIdeal.S2x1600000, .i32⟩ : BufTy).Contents (Elt Ideal) := m ((c : Thread nD τ).loc main_arg1)
abbrev arg2 : (⟨Cert.ReferenceIdeal.S128x128, .f32⟩ : BufTy).Contents (Elt Ideal) := m ((c : Thread nD τ).loc main_arg2)
abbrev arg3 : (⟨Cert.ReferenceIdeal.S128, .f32⟩ : BufTy).Contents (Elt Ideal) := m ((c : Thread nD τ).loc main_arg3)
abbrev arg4 : (⟨Cert.ReferenceIdeal.S128x64, .f32⟩ : BufTy).Contents (Elt Ideal) := m ((c : Thread nD τ).loc main_arg4)
abbrev arg5 : (⟨Cert.ReferenceIdeal.S64, .f32⟩ : BufTy).Contents (Elt Ideal) := m ((c : Thread nD τ).loc main_arg5)
abbrev arg6 : (⟨Cert.ReferenceIdeal.S128x64, .f32⟩ : BufTy).Contents (Elt Ideal) := m ((c : Thread nD τ).loc main_arg6)
abbrev arg7 : (⟨Cert.ReferenceIdeal.S64, .f32⟩ : BufTy).Contents (Elt Ideal) := m ((c : Thread nD τ).loc main_arg7)
abbrev arg8 : (⟨Cert.ReferenceIdeal.S100000x64, .f32⟩ : BufTy).Contents (Elt Ideal) := m ((c : Thread nD τ).loc main_arg8)

/-! ## No step writes an argument: each is as launched wherever it is read -/

theorem at0_arg0 : W0 m ρ c (Proc.devRef .tc main_arg0) = arg0 m c := rfl
theorem at1_arg0 : W1 m ρ c (Proc.devRef .tc main_arg0) = arg0 m c :=
  (kept0 (W0 m ρ c) (r := main_arg0) (by decide)).trans (at0_arg0 m ρ c)
theorem at2_arg0 : W2 m ρ c (Proc.devRef .tc main_arg0) = arg0 m c :=
  (kept0_1 (W1 m ρ c) (r := main_arg0) (by decide)).trans (at1_arg0 m ρ c)
theorem at3_arg0 : W3 m ρ c (Proc.devRef .tc main_arg0) = arg0 m c :=
  (kept0_2 (W2 m ρ c) (r := main_arg0) (by decide)).trans (at2_arg0 m ρ c)
theorem at0_arg2 : W0 m ρ c (Proc.devRef .tc main_arg2) = arg2 m c := rfl
theorem at1_arg2 : W1 m ρ c (Proc.devRef .tc main_arg2) = arg2 m c :=
  (kept0 (W0 m ρ c) (r := main_arg2) (by decide)).trans (at0_arg2 m ρ c)
theorem at2_arg2 : W2 m ρ c (Proc.devRef .tc main_arg2) = arg2 m c :=
  (kept0_1 (W1 m ρ c) (r := main_arg2) (by decide)).trans (at1_arg2 m ρ c)
theorem at3_arg2 : W3 m ρ c (Proc.devRef .tc main_arg2) = arg2 m c :=
  (kept0_2 (W2 m ρ c) (r := main_arg2) (by decide)).trans (at2_arg2 m ρ c)
theorem at0_arg3 : W0 m ρ c (Proc.devRef .tc main_arg3) = arg3 m c := rfl
theorem at1_arg3 : W1 m ρ c (Proc.devRef .tc main_arg3) = arg3 m c :=
  (kept0 (W0 m ρ c) (r := main_arg3) (by decide)).trans (at0_arg3 m ρ c)
theorem at2_arg3 : W2 m ρ c (Proc.devRef .tc main_arg3) = arg3 m c :=
  (kept0_1 (W1 m ρ c) (r := main_arg3) (by decide)).trans (at1_arg3 m ρ c)
theorem at3_arg3 : W3 m ρ c (Proc.devRef .tc main_arg3) = arg3 m c :=
  (kept0_2 (W2 m ρ c) (r := main_arg3) (by decide)).trans (at2_arg3 m ρ c)
theorem at4_arg3 : W4 m ρ c (Proc.devRef .tc main_arg3) = arg3 m c :=
  (W4_of_ne m ρ c main_arg3 (by decide)).trans (at3_arg3 m ρ c)
theorem at0_arg4 : W0 m ρ c (Proc.devRef .tc main_arg4) = arg4 m c := rfl
theorem at1_arg4 : W1 m ρ c (Proc.devRef .tc main_arg4) = arg4 m c :=
  (kept0 (W0 m ρ c) (r := main_arg4) (by decide)).trans (at0_arg4 m ρ c)
theorem at2_arg4 : W2 m ρ c (Proc.devRef .tc main_arg4) = arg4 m c :=
  (kept0_1 (W1 m ρ c) (r := main_arg4) (by decide)).trans (at1_arg4 m ρ c)
theorem at3_arg4 : W3 m ρ c (Proc.devRef .tc main_arg4) = arg4 m c :=
  (kept0_2 (W2 m ρ c) (r := main_arg4) (by decide)).trans (at2_arg4 m ρ c)
theorem at4_arg4 : W4 m ρ c (Proc.devRef .tc main_arg4) = arg4 m c :=
  (W4_of_ne m ρ c main_arg4 (by decide)).trans (at3_arg4 m ρ c)
theorem at5_arg4 : W5 m ρ c (Proc.devRef .tc main_arg4) = arg4 m c :=
  (kept1 (W4 m ρ c) (r := main_arg4) (by decide)).trans (at4_arg4 m ρ c)
theorem at6_arg4 : W6 m ρ c (Proc.devRef .tc main_arg4) = arg4 m c :=
  (W6_of_ne m ρ c main_arg4 (by decide)).trans (at5_arg4 m ρ c)
theorem at0_arg5 : W0 m ρ c (Proc.devRef .tc main_arg5) = arg5 m c := rfl
theorem at1_arg5 : W1 m ρ c (Proc.devRef .tc main_arg5) = arg5 m c :=
  (kept0 (W0 m ρ c) (r := main_arg5) (by decide)).trans (at0_arg5 m ρ c)
theorem at2_arg5 : W2 m ρ c (Proc.devRef .tc main_arg5) = arg5 m c :=
  (kept0_1 (W1 m ρ c) (r := main_arg5) (by decide)).trans (at1_arg5 m ρ c)
theorem at3_arg5 : W3 m ρ c (Proc.devRef .tc main_arg5) = arg5 m c :=
  (kept0_2 (W2 m ρ c) (r := main_arg5) (by decide)).trans (at2_arg5 m ρ c)
theorem at4_arg5 : W4 m ρ c (Proc.devRef .tc main_arg5) = arg5 m c :=
  (W4_of_ne m ρ c main_arg5 (by decide)).trans (at3_arg5 m ρ c)
theorem at5_arg5 : W5 m ρ c (Proc.devRef .tc main_arg5) = arg5 m c :=
  (kept1 (W4 m ρ c) (r := main_arg5) (by decide)).trans (at4_arg5 m ρ c)
theorem at6_arg5 : W6 m ρ c (Proc.devRef .tc main_arg5) = arg5 m c :=
  (W6_of_ne m ρ c main_arg5 (by decide)).trans (at5_arg5 m ρ c)
theorem at7_arg5 : W7 m ρ c (Proc.devRef .tc main_arg5) = arg5 m c :=
  (W7_of_ne m ρ c main_arg5 (by decide)).trans (at6_arg5 m ρ c)
theorem at8_arg5 : W8 m ρ c (Proc.devRef .tc main_arg5) = arg5 m c :=
  (kept3 (W7 m ρ c) (r := main_arg5) (by decide)).trans (at7_arg5 m ρ c)
theorem at9_arg5 : W9 m ρ c (Proc.devRef .tc main_arg5) = arg5 m c :=
  (W9_of_ne m ρ c main_arg5 (by decide)).trans (at8_arg5 m ρ c)
theorem at0_arg6 : W0 m ρ c (Proc.devRef .tc main_arg6) = arg6 m c := rfl
theorem at1_arg6 : W1 m ρ c (Proc.devRef .tc main_arg6) = arg6 m c :=
  (kept0 (W0 m ρ c) (r := main_arg6) (by decide)).trans (at0_arg6 m ρ c)
theorem at2_arg6 : W2 m ρ c (Proc.devRef .tc main_arg6) = arg6 m c :=
  (kept0_1 (W1 m ρ c) (r := main_arg6) (by decide)).trans (at1_arg6 m ρ c)
theorem at3_arg6 : W3 m ρ c (Proc.devRef .tc main_arg6) = arg6 m c :=
  (kept0_2 (W2 m ρ c) (r := main_arg6) (by decide)).trans (at2_arg6 m ρ c)
theorem at4_arg6 : W4 m ρ c (Proc.devRef .tc main_arg6) = arg6 m c :=
  (W4_of_ne m ρ c main_arg6 (by decide)).trans (at3_arg6 m ρ c)
theorem at5_arg6 : W5 m ρ c (Proc.devRef .tc main_arg6) = arg6 m c :=
  (kept1 (W4 m ρ c) (r := main_arg6) (by decide)).trans (at4_arg6 m ρ c)
theorem at6_arg6 : W6 m ρ c (Proc.devRef .tc main_arg6) = arg6 m c :=
  (W6_of_ne m ρ c main_arg6 (by decide)).trans (at5_arg6 m ρ c)
theorem at7_arg6 : W7 m ρ c (Proc.devRef .tc main_arg6) = arg6 m c :=
  (W7_of_ne m ρ c main_arg6 (by decide)).trans (at6_arg6 m ρ c)
theorem at8_arg6 : W8 m ρ c (Proc.devRef .tc main_arg6) = arg6 m c :=
  (kept3 (W7 m ρ c) (r := main_arg6) (by decide)).trans (at7_arg6 m ρ c)
theorem at0_arg7 : W0 m ρ c (Proc.devRef .tc main_arg7) = arg7 m c := rfl
theorem at1_arg7 : W1 m ρ c (Proc.devRef .tc main_arg7) = arg7 m c :=
  (kept0 (W0 m ρ c) (r := main_arg7) (by decide)).trans (at0_arg7 m ρ c)
theorem at2_arg7 : W2 m ρ c (Proc.devRef .tc main_arg7) = arg7 m c :=
  (kept0_1 (W1 m ρ c) (r := main_arg7) (by decide)).trans (at1_arg7 m ρ c)
theorem at3_arg7 : W3 m ρ c (Proc.devRef .tc main_arg7) = arg7 m c :=
  (kept0_2 (W2 m ρ c) (r := main_arg7) (by decide)).trans (at2_arg7 m ρ c)
theorem at4_arg7 : W4 m ρ c (Proc.devRef .tc main_arg7) = arg7 m c :=
  (W4_of_ne m ρ c main_arg7 (by decide)).trans (at3_arg7 m ρ c)
theorem at5_arg7 : W5 m ρ c (Proc.devRef .tc main_arg7) = arg7 m c :=
  (kept1 (W4 m ρ c) (r := main_arg7) (by decide)).trans (at4_arg7 m ρ c)
theorem at6_arg7 : W6 m ρ c (Proc.devRef .tc main_arg7) = arg7 m c :=
  (W6_of_ne m ρ c main_arg7 (by decide)).trans (at5_arg7 m ρ c)
theorem at7_arg7 : W7 m ρ c (Proc.devRef .tc main_arg7) = arg7 m c :=
  (W7_of_ne m ρ c main_arg7 (by decide)).trans (at6_arg7 m ρ c)
theorem at8_arg7 : W8 m ρ c (Proc.devRef .tc main_arg7) = arg7 m c :=
  (kept3 (W7 m ρ c) (r := main_arg7) (by decide)).trans (at7_arg7 m ρ c)
theorem at9_arg7 : W9 m ρ c (Proc.devRef .tc main_arg7) = arg7 m c :=
  (W9_of_ne m ρ c main_arg7 (by decide)).trans (at8_arg7 m ρ c)
theorem at0_arg8 : W0 m ρ c (Proc.devRef .tc main_arg8) = arg8 m c := rfl
theorem at1_arg8 : W1 m ρ c (Proc.devRef .tc main_arg8) = arg8 m c :=
  (kept0 (W0 m ρ c) (r := main_arg8) (by decide)).trans (at0_arg8 m ρ c)
theorem at2_arg8 : W2 m ρ c (Proc.devRef .tc main_arg8) = arg8 m c :=
  (kept0_1 (W1 m ρ c) (r := main_arg8) (by decide)).trans (at1_arg8 m ρ c)
theorem at3_arg8 : W3 m ρ c (Proc.devRef .tc main_arg8) = arg8 m c :=
  (kept0_2 (W2 m ρ c) (r := main_arg8) (by decide)).trans (at2_arg8 m ρ c)
theorem at4_arg8 : W4 m ρ c (Proc.devRef .tc main_arg8) = arg8 m c :=
  (W4_of_ne m ρ c main_arg8 (by decide)).trans (at3_arg8 m ρ c)
theorem at5_arg8 : W5 m ρ c (Proc.devRef .tc main_arg8) = arg8 m c :=
  (kept1 (W4 m ρ c) (r := main_arg8) (by decide)).trans (at4_arg8 m ρ c)
theorem at6_arg8 : W6 m ρ c (Proc.devRef .tc main_arg8) = arg8 m c :=
  (W6_of_ne m ρ c main_arg8 (by decide)).trans (at5_arg8 m ρ c)
theorem at7_arg8 : W7 m ρ c (Proc.devRef .tc main_arg8) = arg8 m c :=
  (W7_of_ne m ρ c main_arg8 (by decide)).trans (at6_arg8 m ρ c)
theorem at8_arg8 : W8 m ρ c (Proc.devRef .tc main_arg8) = arg8 m c :=
  (kept3 (W7 m ρ c) (r := main_arg8) (by decide)).trans (at7_arg8 m ρ c)
theorem at9_arg8 : W9 m ρ c (Proc.devRef .tc main_arg8) = arg8 m c :=
  (W9_of_ne m ρ c main_arg8 (by decide)).trans (at8_arg8 m ρ c)
theorem at10_arg8 : W10 m ρ c (Proc.devRef .tc main_arg8) = arg8 m c :=
  (kept4 (W9 m ρ c) (r := main_arg8) (by decide)).trans (at9_arg8 m ρ c)

/-! ## The index vectors and the edge weights (boundaries 1 – 3), carried to where they are last read -/

theorem at1_v5 : W1 m ρ c (Proc.devRef .tc main_v5) = val_main_v3 (F := Ideal) (arg1 m c) := sources (W0 m ρ c)
theorem at1_v6 : W1 m ρ c (Proc.devRef .tc main_v6) = val_main_v6 (F := Ideal) (arg1 m c) := destinations (W0 m ρ c)
theorem at1_v12 : W1 m ρ c (Proc.devRef .tc main_v12) = val_main_v12 (F := Ideal) (arg1 m c) := degree_positive (W0 m ρ c)
theorem at1_v15 : W1 m ρ c (Proc.devRef .tc main_v15) = val_main_v15 (F := Ideal) (arg1 m c) := degree_rsqrt (W0 m ρ c)
theorem at1_cst_3 : W1 m ρ c (Proc.devRef .tc main_cst_3) = val_main_cst_3 (F := Ideal) := zero_word (W0 m ρ c)
theorem at2_v5 : W2 m ρ c (Proc.devRef .tc main_v5) = val_main_v3 (F := Ideal) (arg1 m c) :=
  (kept0_1 (W1 m ρ c) (r := main_v5) (by decide)).trans (at1_v5 m ρ c)
theorem at2_v6 : W2 m ρ c (Proc.devRef .tc main_v6) = val_main_v6 (F := Ideal) (arg1 m c) :=
  (kept0_1 (W1 m ρ c) (r := main_v6) (by decide)).trans (at1_v6 m ρ c)
theorem at2_v16 : W2 m ρ c (Proc.devRef .tc main_v16) = val_main_v16 (F := Ideal) (arg1 m c) :=
  factors (W1 m ρ c) (arg1 m c) (at1_v12 m ρ c) (at1_v15 m ρ c) (at1_cst_3 m ρ c)
theorem at3_v5 : W3 m ρ c (Proc.devRef .tc main_v5) = val_main_v3 (F := Ideal) (arg1 m c) :=
  (kept0_2 (W2 m ρ c) (r := main_v5) (by decide)).trans (at2_v5 m ρ c)
theorem at3_v6 : W3 m ρ c (Proc.devRef .tc main_v6) = val_main_v6 (F := Ideal) (arg1 m c) :=
  (kept0_2 (W2 m ρ c) (r := main_v6) (by decide)).trans (at2_v6 m ρ c)
theorem at3_v31 : W3 m ρ c (Proc.devRef .tc main_v31) = val_main_v31 (F := Ideal) (arg1 m c) :=
  weights (W2 m ρ c) (arg1 m c) (at2_v5 m ρ c) (at2_v6 m ρ c) (at2_v16 m ρ c)

theorem at4_v5 : W4 m ρ c (Proc.devRef .tc main_v5) = val_main_v3 (F := Ideal) (arg1 m c) :=
  (W4_of_ne m ρ c main_v5 (by decide)).trans (at3_v5 m ρ c)
theorem at4_v6 : W4 m ρ c (Proc.devRef .tc main_v6) = val_main_v6 (F := Ideal) (arg1 m c) :=
  (W4_of_ne m ρ c main_v6 (by decide)).trans (at3_v6 m ρ c)
theorem at4_v31 : W4 m ρ c (Proc.devRef .tc main_v31) = val_main_v31 (F := Ideal) (arg1 m c) :=
  (W4_of_ne m ρ c main_v31 (by decide)).trans (at3_v31 m ρ c)
theorem at5_v5 : W5 m ρ c (Proc.devRef .tc main_v5) = val_main_v3 (F := Ideal) (arg1 m c) :=
  (kept1 (W4 m ρ c) (r := main_v5) (by decide)).trans (at4_v5 m ρ c)
theorem at5_v6 : W5 m ρ c (Proc.devRef .tc main_v6) = val_main_v6 (F := Ideal) (arg1 m c) :=
  (kept1 (W4 m ρ c) (r := main_v6) (by decide)).trans (at4_v6 m ρ c)
theorem at5_v31 : W5 m ρ c (Proc.devRef .tc main_v31) = val_main_v31 (F := Ideal) (arg1 m c) :=
  (kept1 (W4 m ρ c) (r := main_v31) (by decide)).trans (at4_v31 m ρ c)
theorem at6_v5 : W6 m ρ c (Proc.devRef .tc main_v5) = val_main_v3 (F := Ideal) (arg1 m c) :=
  (W6_of_ne m ρ c main_v5 (by decide)).trans (at5_v5 m ρ c)
theorem at6_v6 : W6 m ρ c (Proc.devRef .tc main_v6) = val_main_v6 (F := Ideal) (arg1 m c) :=
  (W6_of_ne m ρ c main_v6 (by decide)).trans (at5_v6 m ρ c)
theorem at6_v31 : W6 m ρ c (Proc.devRef .tc main_v31) = val_main_v31 (F := Ideal) (arg1 m c) :=
  (W6_of_ne m ρ c main_v31 (by decide)).trans (at5_v31 m ρ c)
theorem at7_v5 : W7 m ρ c (Proc.devRef .tc main_v5) = val_main_v3 (F := Ideal) (arg1 m c) :=
  (W7_of_ne m ρ c main_v5 (by decide)).trans (at6_v5 m ρ c)
theorem at7_v6 : W7 m ρ c (Proc.devRef .tc main_v6) = val_main_v6 (F := Ideal) (arg1 m c) :=
  (W7_of_ne m ρ c main_v6 (by decide)).trans (at6_v6 m ρ c)
theorem at7_v31 : W7 m ρ c (Proc.devRef .tc main_v31) = val_main_v31 (F := Ideal) (arg1 m c) :=
  (W7_of_ne m ρ c main_v31 (by decide)).trans (at6_v31 m ρ c)
theorem at8_v5 : W8 m ρ c (Proc.devRef .tc main_v5) = val_main_v3 (F := Ideal) (arg1 m c) :=
  (kept3 (W7 m ρ c) (r := main_v5) (by decide)).trans (at7_v5 m ρ c)
theorem at8_v6 : W8 m ρ c (Proc.devRef .tc main_v6) = val_main_v6 (F := Ideal) (arg1 m c) :=
  (kept3 (W7 m ρ c) (r := main_v6) (by decide)).trans (at7_v6 m ρ c)
theorem at8_v31 : W8 m ρ c (Proc.devRef .tc main_v31) = val_main_v31 (F := Ideal) (arg1 m c) :=
  (kept3 (W7 m ρ c) (r := main_v31) (by decide)).trans (at7_v31 m ρ c)
theorem at9_v5 : W9 m ρ c (Proc.devRef .tc main_v5) = val_main_v3 (F := Ideal) (arg1 m c) :=
  (W9_of_ne m ρ c main_v5 (by decide)).trans (at8_v5 m ρ c)
theorem at9_v6 : W9 m ρ c (Proc.devRef .tc main_v6) = val_main_v6 (F := Ideal) (arg1 m c) :=
  (W9_of_ne m ρ c main_v6 (by decide)).trans (at8_v6 m ρ c)
theorem at9_v31 : W9 m ρ c (Proc.devRef .tc main_v31) = val_main_v31 (F := Ideal) (arg1 m c) :=
  (W9_of_ne m ρ c main_v31 (by decide)).trans (at8_v31 m ρ c)

/-! ## Layer 1: the product, its aggregation, the activation -/

theorem at4_v32 : W4 m ρ c (Proc.devRef .tc main_v32) = val_main_v32 (F := Ideal) (arg0 m c) (arg2 m c) :=
  (W4_arr m ρ c 2).trans ((region0 (V3 m ρ) c).trans
    (congrArg₂ (fun X Y => product128 X Y) (at3_arg0 m ρ c) (at3_arg2 m ρ c)))
theorem at5_v45 : W5 m ρ c (Proc.devRef .tc main_v45) = val_main_v45 (F := Ideal) (arg0 m c) (arg1 m c) (arg2 m c) :=
  aggregate1 (W4 m ρ c) (arg0 m c) (arg1 m c) (arg2 m c) (at4_v32 m ρ c) (at4_v5 m ρ c) (at4_v6 m ρ c) (at4_v31 m ρ c)
theorem at5_v46 : W5 m ρ c (Proc.devRef .tc main_v46) = shapeCast S1x128 (arg3 m c) shapeCasts_S128_S1x128 :=
  (bias_row1 (W4 m ρ c)).trans (congrArg (fun b => shapeCast S1x128 b shapeCasts_S128_S1x128) (at4_arg3 m ρ c))
theorem at6_v47 : W6 m ρ c (Proc.devRef .tc main_v47) = val_main_v49 (F := Ideal) (arg0 m c) (arg1 m c) (arg2 m c) (arg3 m c) :=
  (W6_arr m ρ c 2).trans ((region1 (V5 m ρ) c (arg3 m c) (at5_v46 m ρ c)).trans
    (congrArg (fun A => activated A (arg3 m c)) (at5_v45 m ρ c)))

/-! ## The mu branch: the product of the activated matrix and its aggregation -/

theorem at7_v48 : W7 m ρ c (Proc.devRef .tc main_v48) = val_main_v50 (F := Ideal) (arg0 m c) (arg1 m c) (arg2 m c) (arg3 m c) (arg4 m c) :=
  (W7_arr m ρ c 2).trans ((region2 (V6 m ρ) c).trans
    (congrArg₂ (fun X Y => product64 X Y) (at6_v47 m ρ c) (at6_arg4 m ρ c)))
/-- The activated matrix is an input of the region, which leaves it as it found it. -/
theorem at7_v47 : W7 m ρ c (Proc.devRef .tc main_v47) = val_main_v49 (F := Ideal) (arg0 m c) (arg1 m c) (arg2 m c) (arg3 m c) :=
  (W7_arr m ρ c 0).trans ((((dat2 (V6 m ρ) c).arrAt_in 0 rfl _).trans (A_eq2 (V6 m ρ) c 0)).trans (at6_v47 m ρ c))
theorem at8_v47 : W8 m ρ c (Proc.devRef .tc main_v47) = val_main_v49 (F := Ideal) (arg0 m c) (arg1 m c) (arg2 m c) (arg3 m c) :=
  (kept3 (W7 m ρ c) (r := main_v47) (by decide)).trans (at7_v47 m ρ c)
theorem at8_v61 : W8 m ρ c (Proc.devRef .tc main_v61) = val_main_v63 (F := Ideal) (arg0 m c) (arg1 m c) (arg2 m c) (arg3 m c) (arg4 m c) :=
  aggregate_mu (W7 m ρ c) (arg0 m c) (arg1 m c) (arg2 m c) (arg3 m c) (arg4 m c) (at7_v48 m ρ c) (at7_v5 m ρ c) (at7_v6 m ρ c) (at7_v31 m ρ c)
theorem at9_v61 : W9 m ρ c (Proc.devRef .tc main_v61) = val_main_v63 (F := Ideal) (arg0 m c) (arg1 m c) (arg2 m c) (arg3 m c) (arg4 m c) :=
  (W9_of_ne m ρ c main_v61 (by decide)).trans (at8_v61 m ρ c)
theorem at10_v61 : W10 m ρ c (Proc.devRef .tc main_v61) = val_main_v63 (F := Ideal) (arg0 m c) (arg1 m c) (arg2 m c) (arg3 m c) (arg4 m c) :=
  (kept4 (W9 m ρ c) (r := main_v61) (by decide)).trans (at9_v61 m ρ c)

/-! ## The logvar branch -/

theorem at9_v62 : W9 m ρ c (Proc.devRef .tc main_v62) = val_main_v67 (F := Ideal) (arg0 m c) (arg1 m c) (arg2 m c) (arg3 m c) (arg6 m c) :=
  (W9_arr m ρ c 2).trans ((region3 (V8 m ρ) c).trans
    (congrArg₂ (fun X Y => product64 X Y) (at8_v47 m ρ c) (at8_arg6 m ρ c)))
theorem at10_v75 : W10 m ρ c (Proc.devRef .tc main_v75) = val_main_v80 (F := Ideal) (arg0 m c) (arg1 m c) (arg2 m c) (arg3 m c) (arg6 m c) :=
  aggregate_lv (W9 m ρ c) (arg0 m c) (arg1 m c) (arg2 m c) (arg3 m c) (arg6 m c) (at9_v62 m ρ c) (at9_v5 m ρ c) (at9_v6 m ρ c) (at9_v31 m ρ c)
theorem at10_v76 : W10 m ρ c (Proc.devRef .tc main_v76) = shapeCast S1x64 (arg5 m c) shapeCasts_S64_S1x64 :=
  (bias_row_mu (W9 m ρ c)).trans (congrArg (fun b => shapeCast S1x64 b shapeCasts_S64_S1x64) (at9_arg5 m ρ c))
theorem at10_v77 : W10 m ρ c (Proc.devRef .tc main_v77) = shapeCast S1x64 (arg7 m c) shapeCasts_S64_S1x64 :=
  (bias_row_lv (W9 m ρ c)).trans (congrArg (fun b => shapeCast S1x64 b shapeCasts_S64_S1x64) (at9_arg7 m ρ c))

/-! ## The three results -/

/-- mu: the reference's second result stage. -/
theorem result_mu : W11 m ρ c (Proc.devRef .tc main_v78_1)
    = val_main_v66 (F := Ideal) (arg0 m c) (arg1 m c) (arg2 m c) (arg3 m c) (arg4 m c) (arg5 m c) :=
  (W11_arr m ρ c 6).trans ((region4_mu (V10 m ρ) c (arg5 m c) (arg7 m c) (at10_v76 m ρ c) (at10_v77 m ρ c)).trans
    (congrArg (fun A => mean A (arg5 m c)) (at10_v61 m ρ c)))
/-- logvar: the reference's third result stage. -/
theorem result_logvar : W11 m ρ c (Proc.devRef .tc main_v78_2)
    = val_main_v83 (F := Ideal) (arg0 m c) (arg1 m c) (arg2 m c) (arg3 m c) (arg6 m c) (arg7 m c) :=
  (W11_arr m ρ c 7).trans ((region4_lv (V10 m ρ) c (arg5 m c) (arg7 m c) (at10_v76 m ρ c) (at10_v77 m ρ c)).trans
    (congrArg (fun A => logvar A (arg7 m c)) (at10_v75 m ρ c)))
/-- z: the reference's first result stage. -/
theorem result_z : W11 m ρ c (Proc.devRef .tc main_v78_0)
    = val_main_v88 (F := Ideal) (arg0 m c) (arg1 m c) (arg2 m c) (arg3 m c) (arg4 m c) (arg5 m c) (arg6 m c) (arg7 m c) (arg8 m c) := by
  refine (W11_arr m ρ c 5).trans ((region4_z (V10 m ρ) c (arg5 m c) (arg7 m c) (at10_v76 m ρ c) (at10_v77 m ρ c)).trans ?_)
  rw [show V10 m ρ c main_v61 = _ from at10_v61 m ρ c, show V10 m ρ c main_v75 = _ from at10_v75 m ρ c,
    show V10 m ρ c main_arg8 = _ from at10_arg8 m ρ c]
  rfl

end Cert.KernelIdeal.Walk

end
-- ==== Proof.lean ====
/-
  A two-layer graph convolution with a variational head, tiled into five kernel regions, against its plain reference.

  Both programs take node features x (100000 × 128), an edge list (2 × 1600000), weights W1, Wμ, Wσ with biases
  b1, bμ, bσ, and noise ε (100000 × 64). From the edge list alone both build the same index vectors (every edge's
  source and destination, followed by a self loop per node) and the same edge weights: the in-degree d of a node, its
  factor rsqrt(max(d, 1)) where d > 0 and 0 elsewhere, and for an edge the product of its two ends' factors. With
  "aggregate M" meaning: gather the rows of M named by the sources, scale row e by the weight of edge e, and
  scatter-add the rows into zeros at the destinations, both compute

      h = max(aggregate(x · W1) + b1, 0),   mu = aggregate(h · Wμ) + bμ,   logvar = aggregate(h · Wσ) + bσ,
      z = mu + ε · exp(0.5 · logvar)

  and return (z, mu, logvar). The reference does every step on whole arrays. The kernel does the index and weight
  arithmetic and the three aggregations with the same whole-array operations, and does the three matrix products,
  the activation and the last three formulas in regions tiled over blocks of rows (10000 rows a block for the
  products and the activation, 5000 for the last region), the products with operands first narrowed to a shorter
  float format.

  At the exact extended reals narrowing a float is the identity, and a block of rows of a matrix product is the
  product of that block of rows: entry (p, q) of (rows of X) · W is the same finite sum of products as entry
  (row, q) of X · W, with no condition on the entries. The bias added through a one-row matrix inside a block is the
  bias broadcast over all rows, and the two exponentials are the one exponential of the extended reals. So each
  region's output array is the reference's corresponding whole-array stage of the region's input arrays, and since
  the steps between the regions are the same operations on both sides, the arrays agree stage by stage from the
  arguments to the three results. No law used here asks for finite entries, so the precondition is not opened.

  The modules: the kernel's run with its results named (KernelRun), one module per region for "the blocks tile
  the array and each block is the stage read through the block" (Region0 – Region4), the stretches of host
  operations read as reference stages (HostStretches), the chain of buffer contents from boundary to boundary
  (Walk), and the reference's run and its stages (RefRunPatched, RefReadPatched).
-/
import proofs.«123272_j51823075393706_1_alg».proof.Defs
import proofs.«123272_j51823075393706_1_alg».proof.Proof.Gen.Kernel
import proofs.«123272_j51823075393706_1_alg».proof.Proof.Gen.Kernel.Skeleton
import proofs.«123272_j51823075393706_1_alg».proof.Proof.Gen.Kernel.Launch
import proofs.«123272_j51823075393706_1_alg».proof.Proof.Gen.Kernel.Points
import proofs.«123272_j51823075393706_1_alg».proof.Proof.Gen.Kernel.Frame
import proofs.«123272_j51823075393706_1_alg».proof.Proof.Gen.KernelIdeal
import proofs.«123272_j51823075393706_1_alg».proof.Proof.Gen.KernelIdeal.Skeleton
import proofs.«123272_j51823075393706_1_alg».proof.Proof.Gen.KernelIdeal.Launch
import proofs.«123272_j51823075393706_1_alg».proof.Proof.Gen.KernelIdeal.Points
import proofs.«123272_j51823075393706_1_alg».proof.Proof.Gen.KernelIdeal.Frame
import proofs.«123272_j51823075393706_1_alg».proof.Proof.Gen.ReferenceIdeal
import proofs.«123272_j51823075393706_1_alg».proof.Proof.Gen.Pre_finite_inputs
import proofs.«123272_j51823075393706_1_alg».proof.Proof.RefRunPatched
import proofs.«123272_j51823075393706_1_alg».proof.Proof.RefReadPatched
import proofs.«123272_j51823075393706_1_alg».proof.Proof.KernelRun
import proofs.«123272_j51823075393706_1_alg».proof.Proof.Walk
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the three results dropped. -/
theorem frame_reference_ideal : Cert.frame_ReferenceIdeal := fun m ρ _ =>
  (θ_run Cert.ReferenceIdeal.defs _ _).mono (fun _ h c => (h c).2.2.2) (Cert.ReferenceIdeal.ValueP.run (F := Ideal) m ρ)

/-- The idealization rewrote no operation. -/
theorem preserves : Cert.preserves_Kernel_KernelIdeal := trivial

/-- From memories agreeing on the nine arguments both idealized programs run, and end with the same three arrays:
    the reference's result stages z, mu, logvar of the kernel's argument arrays. -/
theorem algebraic : Cert.algebraic_KernelIdeal_ReferenceIdeal := by
  intro m ρ m' ρ' _ hagree
  refine ⟨fun c => Cert.ReferenceIdeal.ReadP.val_main_v88 (F := Ideal) (Cert.KernelIdeal.Walk.arg0 m c) (Cert.KernelIdeal.Walk.arg1 m c) (Cert.KernelIdeal.Walk.arg2 m c) (Cert.KernelIdeal.Walk.arg3 m c) (Cert.KernelIdeal.Walk.arg4 m c) (Cert.KernelIdeal.Walk.arg5 m c) (Cert.KernelIdeal.Walk.arg6 m c) (Cert.KernelIdeal.Walk.arg7 m c) (Cert.KernelIdeal.Walk.arg8 m c),
    fun c => Cert.ReferenceIdeal.ReadP.val_main_v66 (F := Ideal) (Cert.KernelIdeal.Walk.arg0 m c) (Cert.KernelIdeal.Walk.arg1 m c) (Cert.KernelIdeal.Walk.arg2 m c) (Cert.KernelIdeal.Walk.arg3 m c) (Cert.KernelIdeal.Walk.arg4 m c) (Cert.KernelIdeal.Walk.arg5 m c),
    fun c => Cert.ReferenceIdeal.ReadP.val_main_v83 (F := Ideal) (Cert.KernelIdeal.Walk.arg0 m c) (Cert.KernelIdeal.Walk.arg1 m c) (Cert.KernelIdeal.Walk.arg2 m c) (Cert.KernelIdeal.Walk.arg3 m c) (Cert.KernelIdeal.Walk.arg6 m c) (Cert.KernelIdeal.Walk.arg7 m c), ?_, ?_⟩
  · refine (θ_run Cert.KernelIdeal.defs _ _).mono (fun r h c => ?_) (Cert.KernelIdeal.Named.run (F := Ideal) m ρ)
    obtain ⟨h0, h1, h2, hargs⟩ := h c
    exact ⟨h0.trans (Cert.KernelIdeal.Walk.result_z m ρ c), h1.trans (Cert.KernelIdeal.Walk.result_mu m ρ c),
      h2.trans (Cert.KernelIdeal.Walk.result_logvar m ρ c), hargs⟩
  · refine (θ_run Cert.ReferenceIdeal.defs _ _).mono (fun r h c => ?_) (Cert.ReferenceIdeal.ValueP.run (F := Ideal) m' ρ')
    obtain ⟨h0, h1, h2, hargs⟩ := h c
    obtain ⟨a0, a1, a2, a3, a4, a5, a6, a7, a8⟩ := hagree c
    refine ⟨h0.trans ?_, h1.trans ?_, h2.trans ?_, hargs⟩
    · rw [Cert.ReferenceIdeal.ReadP.val_main_v88_eq, a0, a1, a2, a3, a4, a5, a6, a7, a8]
    · rw [Cert.ReferenceIdeal.ReadP.val_main_v66_eq, a0, a1, a2, a3, a4, a5]
    · rw [Cert.ReferenceIdeal.ReadP.val_main_v83_eq, a0, a1, a2, a3, a6, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
